-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big_2" .f32 0xFEB33332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S256x4 : Shape := ⟨2, ![256, 4]⟩
abbrev S100000x128 : Shape := ⟨2, ![100000, 128]⟩
abbrev S256x128 : Shape := ⟨2, ![256, 128]⟩
abbrev S256x1 : Shape := ⟨2, ![256, 1]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S100000x4 32) (main_arg1 : IVec S256x4 32) (main_arg2 : FVec F S100000x128 .f32) (main_arg3 : FVec F S256x128 .f32) (main_arg4 : FVec F S256x1 .f32) (main_arg5 : FVec F S128x64 .f32) (main_arg6 : FVec F S64 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x4 : Shape := ⟨2, ![100000, 4]⟩
abbrev S256x4 : Shape := ⟨2, ![256, 4]⟩
abbrev S100000x128 : Shape := ⟨2, ![100000, 128]⟩
abbrev S256x128 : Shape := ⟨2, ![256, 128]⟩
abbrev S256x1 : Shape := ⟨2, ![256, 1]⟩
abbrev S128x64 : Shape := ⟨2, ![128, 64]⟩
abbrev S64 : Shape := ⟨1, ![64]⟩
abbrev S256x64 : Shape := ⟨2, ![256, 64]⟩
abbrev S1x64 : Shape := ⟨2, ![1, 64]⟩
abbrev S64x256 : Shape := ⟨2, ![64, 256]⟩
abbrev S256 : Shape := ⟨1, ![256]⟩
abbrev S1x256 : Shape := ⟨2, ![1, 256]⟩
abbrev S256x3 : Shape := ⟨2, ![256, 3]⟩
abbrev S_ : Shape := ⟨0, ![]⟩
abbrev S8x256 : Shape := ⟨2, ![8, 256]⟩
abbrev S100000x1 : Shape := ⟨2, ![100000, 1]⟩
abbrev S100000x3 : Shape := ⟨2, ![100000, 3]⟩
abbrev S100000 : Shape := ⟨1, ![100000]⟩
abbrev S100000x8 : Shape := ⟨2, ![100000, 8]⟩
abbrev S100000x256 : Shape := ⟨2, ![100000, 256]⟩
abbrev S4000x128 : Shape := ⟨2, ![4000, 128]⟩
abbrev S4000x8 : Shape := ⟨2, ![4000, 8]⟩
abbrev S4000x256 : Shape := ⟨2, ![4000, 256]⟩
abbrev S4000x64 : Shape := ⟨2, ![4000, 64]⟩
abbrev S4000 : Shape := ⟨1, ![4000]⟩
abbrev S4000x1 : Shape := ⟨2, ![4000, 1]⟩

abbrev nBuf : Space → Nat
  | .hbm => 63
  | .vmem => 11
  | .smem => 0
  | _ => 0

abbrev bufTy : (tb : Table) → Fin (tcTables nBuf tb) → BufTy
  | .hbm, ⟨0, _⟩ => ⟨S100000x4, .i32⟩
  | .hbm, ⟨1, _⟩ => ⟨S256x4, .i32⟩
  | .hbm, ⟨2, _⟩ => ⟨S100000x128, .f32⟩
  | .hbm, ⟨3, _⟩ => ⟨S256x128, .f32⟩
  | .hbm, ⟨4, _⟩ => ⟨S256x1, .f32⟩
  | .hbm, ⟨5, _⟩ => ⟨S128x64, .f32⟩
  | .hbm, ⟨6, _⟩ => ⟨S64, .f32⟩
  | .hbm, ⟨7, _⟩ => ⟨S256x64, .f32⟩
  | .hbm, ⟨8, _⟩ => ⟨S1x64, .f32⟩
  | .hbm, ⟨9, _⟩ => ⟨S256x64, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S64x256, .f32⟩
  | .hbm, ⟨14, _⟩ => ⟨S64x256, .bf16⟩
  | .hbm, ⟨15, _⟩ => ⟨S256x1, .i32⟩
  | .hbm, ⟨16, _⟩ => ⟨S256, .i32⟩
  | .hbm, ⟨17, _⟩ => ⟨S1x256, .i32⟩
  | .hbm, ⟨18, _⟩ => ⟨S1x256, .f32⟩
  | .hbm, ⟨19, _⟩ => ⟨S256x3, .i32⟩
  | .hbm, ⟨20, _⟩ => ⟨S256x3, .f32⟩
  | .hbm, ⟨21, _⟩ => ⟨S256x3, .f32⟩
  | .hbm, ⟨22, _⟩ => ⟨S_, .f32⟩
  | .hbm, ⟨23, _⟩ => ⟨S256, .f32⟩
  | .hbm, ⟨24, _⟩ => ⟨S1x256, .f32⟩
  | .hbm, ⟨25, _⟩ => ⟨S1x64, .f32⟩
  | .hbm, ⟨26, _⟩ => ⟨S_, .f32⟩
  | .hbm, ⟨27, _⟩ => ⟨S1x256, .f32⟩
  | .hbm, ⟨28, _⟩ => ⟨S256x1, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S256x1, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S256x1, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S8x256, .f32⟩
  | .hbm, ⟨49, _⟩ => ⟨S100000x1, .i32⟩
  | .hbm, ⟨50, _⟩ => ⟨S100000x1, .f32⟩
  | .hbm, ⟨51, _⟩ => ⟨S100000x3, .i32⟩
  | .hbm, ⟨52, _⟩ => ⟨S100000x3, .f32⟩
  | .hbm, ⟨53, _⟩ => ⟨S100000x3, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x8, .f32⟩
  | .hbm, ⟨62, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x8, .f32⟩
  | .local _ .vmem, ⟨3, _⟩ => ⟨S4000x8, .f32⟩
  | .local _ .vmem, ⟨4, _⟩ => ⟨S128x64, .f32⟩
  | .local _ .vmem, ⟨5, _⟩ => ⟨S1x64, .f32⟩
  | .local _ .vmem, ⟨6, _⟩ => ⟨S64x256, .bf16⟩
  | .local _ .vmem, ⟨7, _⟩ => ⟨S1x256, .f32⟩
  | .local _ .vmem, ⟨8, _⟩ => ⟨S8x256, .f32⟩
  | .local _ .vmem, ⟨9, _⟩ => ⟨S4000x256, .f32⟩
  | .local _ .vmem, ⟨10, _⟩ => ⟨S4000x256, .f32⟩
  | _, _ => ⟨S100000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S256x1_S256x64_0_1 : S256x1.BroadcastsInDim S256x64 (![0, 1] : Fin 2 → Fin S256x64.rank)
  transposes_S256x64_S64x256_1_0 : S256x64.Transposes [1, 0] S64x256
  bitsLt_bf16_f32 : FTy.bits .bf16 < FTy.bits .f32
  slices_S256x4_S256x1_0_0 : S256x4.Slices ![0, 0] S256x1
  shapeCasts_S256x1_S256 : S256x1.ShapeCasts S256
  shapeCasts_S256_S1x256 : S256.ShapeCasts S1x256
  slices_S256x4_S256x3_0_1 : S256x4.Slices ![0, 1] S256x3
  reducesTo_S256x3_S256_d1 : S256x3.ReducesTo [1] S256
  h_S_ : 0 < S_.numel
  shapeCasts_S64_S1x64 : S64.ShapeCasts S1x64
  bcast_S_S1x256 : S_.BroadcastsInDim S1x256 (![] : Fin 0 → Fin S1x256.rank)
  slices_S256x3_S256x1_0_0 : S256x3.Slices ![0, 0] S256x1
  bcast_S_S256 : S_.BroadcastsInDim S256 (![] : Fin 0 → Fin S256.rank)
  slices_S256x3_S256x1_0_1 : S256x3.Slices ![0, 1] S256x1
  slices_S256x3_S256x1_0_2 : S256x3.Slices ![0, 2] S256x1
  concatenates_S1x256_S1x256_S1x256_S1x256_S1x256_S1x256_S1x256_S1x256_S8x256_d0 : Shape.Concatenates [S1x256, S1x256, S1x256, S1x256, S1x256, S1x256, S1x256, S1x256] S8x256 0
  slices_S100000x4_S100000x1_0_0 : S100000x4.Slices ![0, 0] S100000x1
  slices_S100000x4_S100000x3_0_1 : S100000x4.Slices ![0, 1] S100000x3
  reducesTo_S100000x3_S100000_d1 : S100000x3.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x1_S100000x3_S100000x1_S100000x1_S100000x1_S100000x1_S100000x8_d1 : Shape.Concatenates [S100000x1, S100000x3, S100000x1, S100000x1, S100000x1, S100000x1] S100000x8 1
  inb_S4000x128_S4000x128_0_0 : ∀ a, (![0, 0] : Fin 2 → Nat) a + S4000x128.size a ≤ S4000x128.size a
  h_S4000x128 : 0 < S4000x128.numel
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  slices_S4000x8_o0_0_S4000x1 : S4000x8.Slices ![0, 0] S4000x1
  broadcasts_S4000x1_S4000x256 : S4000x1.Broadcasts S4000x256
  broadcasts_S1x256_S4000x256 : S1x256.Broadcasts S4000x256
  reduces_S4000x256_S4000 : S4000x256.Reduces [1] S4000
  natLt_1_32 : 1 < 32
  inb_S4000x256_S4000x256_0_0 : ∀ a, (![0, 0] : Fin 2 → Nat) a + S4000x256.size a ≤ S4000x256.size a
  h_S4000x256 : 0 < S4000x256.numel
  dot_S256x128_S128x64_S256x64_1_0_0_1_n_n_wf : DotDims.WF S256x128 S128x64 S256x64 [1] [0] [0] [1] [] []
  dot_S4000x128_S128x64_S4000x64_1_0_0_1_n_n_wf : DotDims.WF S4000x128 S128x64 S4000x64 [1] [0] [0] [1] [] []
  dot_S4000x8_S8x256_S4000x256_1_0_0_1_n_n_wf : DotDims.WF S4000x8 S8x256 S4000x256 [1] [0] [0] [1] [] []
  dot_S4000x64_S64x256_S4000x256_1_0_0_1_n_n_wf : DotDims.WF S4000x64 S64x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S100000x8.size a
  hwx0_1 : ∀ i : grid0.Coords, EltTy.bits .f32 = 32 ∨ (Rect.block (s := S100000x8) S4000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x256.size a
  hwx0_6 : ∀ i : grid0.Coords, EltTy.bits .f32 = 32 ∨ (Rect.block (s := S8x256) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S100000x256.size a
  hwx0_7 : ∀ i : grid0.Coords, EltTy.bits .f32 = 32 ∨ (Rect.block (s := S100000x256) S4000x256.size (cc0_transform_7 i) (hinb0_7 i)).WholeWords (EltTy.packing .f32)

variable [Facts₀]

def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x8_S8x256_S4000x256_1_0_0_1_n_n : DotDims S4000x8 S8x256 S4000x256 where
  lhsContracting := [1]
  rhsContracting := [0]
  lhsNonContracting := [0]
  rhsNonContracting := [1]
  lhsBatch := []
  rhsBatch := []
  wf := dot_S4000x8_S8x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf

abbrev win0_0 : Pipeline.Window sig grid0 :=
  Pipeline.Window.ofSpec (Memref.whole main_arg2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S8x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x4 : Shape := ⟨2, ![100000, 4]⟩
abbrev S256x4 : Shape := ⟨2, ![256, 4]⟩
abbrev S100000x128 : Shape := ⟨2, ![100000, 128]⟩
abbrev S256x128 : Shape := ⟨2, ![256, 128]⟩
abbrev S256x1 : Shape := ⟨2, ![256, 1]⟩
abbrev S128x64 : Shape := ⟨2, ![128, 64]⟩
abbrev S64 : Shape := ⟨1, ![64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S256x64 : Shape := ⟨2, ![256, 64]⟩
abbrev S256 : Shape := ⟨1, ![256]⟩
abbrev S1x256 : Shape := ⟨2, ![1, 256]⟩
abbrev S100000x256 : Shape := ⟨2, ![100000, 256]⟩
abbrev S100000x3 : Shape := ⟨2, ![100000, 3]⟩
abbrev S256x3 : Shape := ⟨2, ![256, 3]⟩
abbrev S3x256 : Shape := ⟨2, ![3, 256]⟩
abbrev S64x256 : Shape := ⟨2, ![64, 256]⟩

abbrev nBuf : Space → Nat
  | .hbm => 90
  | .vmem => 0
  | .smem => 0
  | _ => 0

abbrev bufTy : (tb : Table) → Fin (tcTables nBuf tb) → BufTy
  | .hbm, ⟨0, _⟩ => ⟨S100000x4, .i32⟩
  | .hbm, ⟨1, _⟩ => ⟨S256x4, .i32⟩
  | .hbm, ⟨2, _⟩ => ⟨S100000x128, .f32⟩
  | .hbm, ⟨3, _⟩ => ⟨S256x128, .f32⟩
  | .hbm, ⟨4, _⟩ => ⟨S256x1, .f32⟩
  | .hbm, ⟨5, _⟩ => ⟨S128x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S256x64, .f32⟩
  | .hbm, ⟨22, _⟩ => ⟨S1x64, .f32⟩
  | .hbm, ⟨23, _⟩ => ⟨S256x64, .f32⟩
  | .hbm, ⟨24, _⟩ => ⟨S256x64, .f32⟩
  | .hbm, ⟨25, _⟩ => ⟨S256x64, .f32⟩
  | .hbm, ⟨26, _⟩ => ⟨S256x64, .f32⟩
  | .hbm, ⟨27, _⟩ => ⟨S100000x1, .i32⟩
  | .hbm, ⟨28, _⟩ => ⟨S100000, .i32⟩
  | .hbm, ⟨29, _⟩ => ⟨S100000x1, .i32⟩
  | .hbm, ⟨30, _⟩ => ⟨S256x1, .i32⟩
  | .hbm, ⟨31, _⟩ => ⟨S256, .i32⟩
  | .hbm, ⟨32, _⟩ => ⟨S1x256, .i32⟩
  | .hbm, ⟨33, _⟩ => ⟨S100000x256, .i32⟩
  | .hbm, ⟨34, _⟩ => ⟨S100000x256, .i32⟩
  | .hbm, ⟨35, _⟩ => ⟨S100000x256, .i1⟩
  | .hbm, ⟨36, _⟩ => ⟨S100000x3, .i32⟩
  | .hbm, ⟨37, _⟩ => ⟨S100000x3, .f32⟩
  | .hbm, ⟨38, _⟩ => ⟨S256x3, .i32⟩
  | .hbm, ⟨39, _⟩ => ⟨S256x3, .f32⟩
  | .hbm, ⟨40, _⟩ => ⟨S100000x3, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S256x3, .f32⟩
  | .hbm, ⟨45, _⟩ => ⟨S_, .f32⟩
  | .hbm, ⟨46, _⟩ => ⟨S256, .f32⟩
  | .hbm, ⟨47, _⟩ => ⟨S1x256, .f32⟩
  | .hbm, ⟨48, _⟩ => ⟨S100000x256, .f32⟩
  | .hbm, ⟨49, _⟩ => ⟨S100000x256, .f32⟩
  | .hbm, ⟨50, _⟩ => ⟨S100000x256, .f32⟩
  | .hbm, ⟨51, _⟩ => ⟨S_, .f32⟩
  | .hbm, ⟨52, _⟩ => ⟨S100000x3, .f32⟩
  | .hbm, ⟨53, _⟩ => ⟨S100000x3, .f32⟩
  | .hbm, ⟨54, _⟩ => ⟨S3x256, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x256, .f32⟩
  | .hbm, ⟨76, _⟩ => ⟨S100000x256, .f32⟩
  | .hbm, ⟨77, _⟩ => ⟨S100000x256, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S100000x256, .f32⟩
  | .hbm, ⟨82, _⟩ => ⟨S100000x256, .f32⟩
  | .hbm, ⟨83, _⟩ => ⟨S_, .f32⟩
  | .hbm, ⟨84, _⟩ => ⟨S_, .f32⟩
  | .hbm, ⟨85, _⟩ => ⟨S100000x256, .f32⟩
  | .hbm, ⟨86, _⟩ => ⟨S100000x256, .f32⟩
  | .hbm, ⟨87, _⟩ => ⟨S64x256, .f32⟩
  | .hbm, ⟨88, _⟩ => ⟨S100000x256, .f32⟩
  | .hbm, ⟨89, _⟩ => ⟨S100000x256, .f32⟩
  | _, _ => ⟨S100000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_call1_v0 : Ref sig .tc := ⟨.hbm, 66, rfl⟩
abbrev main_call1_v1 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S256x64_0_1 : S1x64.BroadcastsInDim S256x64 (![0, 1] : Fin 2 → Fin S256x64.rank)
  bcast_S256x1_S256x64_0_1 : S256x1.BroadcastsInDim S256x64 (![0, 1] : Fin 2 → Fin S256x64.rank)
  slices_S100000x4_S100000x1_0_0 : S100000x4.Slices ![0, 0] S100000x1
  shapeCasts_S100000x1_S100000 : S100000x1.ShapeCasts S100000
  slices_S256x4_S256x1_0_0 : S256x4.Slices ![0, 0] S256x1
  shapeCasts_S256x1_S256 : S256x1.ShapeCasts S256
  bcast_S256_S1x256_1 : S256.BroadcastsInDim S1x256 (![1] : Fin 1 → Fin S1x256.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  slices_S100000x4_S100000x3_0_1 : S100000x4.Slices ![0, 1] S100000x3
  slices_S256x4_S256x3_0_1 : S256x4.Slices ![0, 1] S256x3
  reducesTo_S100000x3_S100000_d1 : S100000x3.ReducesTo [1] S100000
  reducesTo_S256x3_S256_d1 : S256x3.ReducesTo [1] S256
  bcast_S_S100000x3 : S_.BroadcastsInDim S100000x3 (![] : Fin 0 → Fin S100000x3.rank)
  transposes_S256x3_S3x256_1_0 : S256x3.Transposes [1, 0] S3x256
  bcast_S_S100000x256 : S_.BroadcastsInDim S100000x256 (![] : Fin 0 → Fin S100000x256.rank)
  reducesTo_S100000x256_S100000_d1 : S100000x256.ReducesTo [1] S100000
  bcast_S_S100000 : S_.BroadcastsInDim S100000 (![] : Fin 0 → Fin S100000.rank)
  transposes_S256x64_S64x256_1_0 : S256x64.Transposes [1, 0] S64x256
  dot_S100000x128_S128x64_S100000x64_1_0_0_1_n_n_wf : DotDims.WF S100000x128 S128x64 S100000x64 [1] [0] [0] [1] [] []
  dot_S256x128_S128x64_S256x64_1_0_0_1_n_n_wf : DotDims.WF S256x128 S128x64 S256x64 [1] [0] [0] [1] [] []
  dot_S100000x3_S3x256_S100000x256_1_0_0_1_n_n_wf : DotDims.WF S100000x3 S3x256 S100000x256 [1] [0] [0] [1] [] []
  dot_S100000x64_S64x256_S100000x256_1_0_0_1_n_n_wf : DotDims.WF S100000x64 S64x256 S100000x256 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S100000x3_S3x256_S100000x256_1_0_0_1_n_n : DotDims S100000x3 S3x256 S100000x256 where
  lhsContracting := [1]
  rhsContracting := [0]
  lhsNonContracting := [0]
  rhsNonContracting := [1]
  lhsBatch := []
  rhsBatch := []
  wf := dot_S100000x3_S3x256_S100000x256_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf

class Facts : Prop extends Facts₀ where

variable [Facts]
-- ==== Proof.FrameIdeal.lean ====
/-
  The frame of `Cert.KernelIdeal`: every weakly fair execution of @main on the TensorCores terminates, and the seven
  argument arrays end as they were launched.

  @main is a line of host operations followed by one pipelined region over a grid of 25 points. The region stages
  eight windows: seven inputs and one output. At a point the body reads each input window's staging buffer whole,
  also reads the output's staging buffer whole (a value it never uses), and overwrites the output's staging buffer
  whole with one value computed from the seven input blocks. So, at every point,

    * an input window's buffer holds that window's block of its array, whether the pipeline fetched it at this point or
      kept it from the point before (the windows fetched at the first point only have a constant block index);
    * the output window's buffer, after the body, is a closed function `out7` of the seven input blocks: the one
      store's payload laid over the whole buffer.

  With that as proof data the library's launch theorem gives the run, and the post of the run read at the argument
  arrays is the frame: two of them are arrays of input windows, which the pipeline only reads, and the other five are
  touched by neither the region nor any host operation (every host operation writes a fresh result buffer).
-/
import proofs.«143742_j69166153335044_2_alg».proof.Proof.Gen.KernelIdeal.Launch
import proofs.«143742_j69166153335044_2_alg».proof.Proof.Gen.KernelIdeal.Skeleton
import proofs.«143742_j69166153335044_2_alg».proof.Proof.Gen.KernelIdeal.Points
import Idealize.ShloMosaic.Lib.Pipeline.FrameBody
import Idealize.ShloMosaic.Lib.Ring
import Idealize.ShloMosaic.Lib.Tactic

-- membership in a rectangle of 4000 × 256 coordinates is found by structural recursion on the coordinates
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch contents `m` run through the
    55 host operations in order, each overwriting its own result buffer with a function of its operands. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region, then nothing: so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes its own result buffer, and `main_arg0` is the result of none: the region finds it as
    launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg1` is the result of none: the region finds it as
    launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg2` is the result of none: the region finds it as
    launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg3` is the result of none: the region finds it as
    launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg4` is the result of none: the region finds it as
    launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg5` is the result of none: the region finds it as
    launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg6` is the result of none: the region finds it as
    launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`: the rectangle of its array (as the region finds the array, `V`) that the window's
    index map selects at the point's coordinates, read as a tensor of the block's shape. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, for any proof data over the arrays
    `V` whose body leaves that block in place. At a point that fetches the window the transfer has just put the block
    there; at a point that does not, the block index has not moved since the point before, whose block the body left in
    the buffer. The window is uncut and has no idle point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, for any proof data over the arrays
    `V` whose body leaves that block in place. At a point that fetches the window the transfer has just put the block
    there; at a point that does not, the block index has not moved since the point before, whose block the body left in
    the buffer. The window is uncut and has no idle point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, for any proof data over the arrays
    `V` whose body leaves that block in place. At a point that fetches the window the transfer has just put the block
    there; at a point that does not, the block index has not moved since the point before, whose block the body left in
    the buffer. The window is uncut and has no idle point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, for any proof data over the arrays
    `V` whose body leaves that block in place. At a point that fetches the window the transfer has just put the block
    there; at a point that does not, the block index has not moved since the point before, whose block the body left in
    the buffer. The window is uncut and has no idle point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, for any proof data over the arrays
    `V` whose body leaves that block in place. At a point that fetches the window the transfer has just put the block
    there; at a point that does not, the block index has not moved since the point before, whose block the body left in
    the buffer. The window is uncut and has no idle point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, for any proof data over the arrays
    `V` whose body leaves that block in place. At a point that fetches the window the transfer has just put the block
    there; at a point that does not, the block index has not moved since the point before, whose block the body left in
    the buffer. The window is uncut and has no idle point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, for any proof data over the arrays
    `V` whose body leaves that block in place. At a point that fetches the window the transfer has just put the block
    there; at a point that does not, the block index has not moved since the point before, whose block the body left in
    the buffer. The window is uncut and has no idle point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from the run's post -/

/-- The run's post says: every array of a window holds what the pipeline's write-backs make of it (for an input
    window, which is never written back, its contents at the region's entry), and every other unscoped buffer holds its
    contents at the region's entry. `main_arg2` and `main_arg5` are the arrays of input windows 0 and 2; the other five
    arguments are arrays of no window. Each is then at its launch contents, no host operation having written it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c)⟩) h

/-! ## The body's accesses -/

/-- The whole of window 0's staging buffer. -/
abbrev r0 : Rect S4000x128 := Rect.unit (s := S4000x128) ![0, 0] S4000x128.size inb_S4000x128_S4000x128_0_0
/-- The whole of window 1's staging buffer. -/
abbrev r1 : Rect S4000x8 := Rect.unit (s := S4000x8) ![0, 0] S4000x8.size inb_S4000x8_S4000x8_0_0
/-- The whole of window 2's staging buffer. -/
abbrev r2 : Rect S128x64 := Rect.unit (s := S128x64) ![0, 0] S128x64.size inb_S128x64_S128x64_0_0
/-- The whole of window 3's staging buffer. -/
abbrev r3 : Rect S1x64 := Rect.unit (s := S1x64) ![0, 0] S1x64.size inb_S1x64_S1x64_0_0
/-- The whole of window 4's staging buffer. -/
abbrev r4 : Rect S64x256 := Rect.unit (s := S64x256) ![0, 0] S64x256.size inb_S64x256_S64x256_0_0
/-- The whole of window 5's staging buffer. -/
abbrev r5 : Rect S1x256 := Rect.unit (s := S1x256) ![0, 0] S1x256.size inb_S1x256_S1x256_0_0
/-- The whole of window 6's staging buffer. -/
abbrev r6 : Rect S8x256 := Rect.unit (s := S8x256) ![0, 0] S8x256.size inb_S8x256_S8x256_0_0
/-- The whole of window 7's staging buffer. -/
abbrev r7 : Rect S4000x256 := Rect.unit (s := S4000x256) ![0, 0] S4000x256.size inb_S4000x256_S4000x256_0_0

/-! ## What the body leaves in the output window's buffer -/

/-- The output window's staging buffer after the body, as a function of the seven input blocks: the one store's payload
    over the whole buffer. With `x0 … x6` the blocks of windows 0 … 6, the payload is the entrywise product of
    `bf16(P) · x4` — `P` the rows of `bf16(x0) · bf16(x2) + x3` each divided by its Euclidean norm, the norm floored
    at a small positive constant — and of a weight: the softmax along each row of the matrix that is
    `−max(√max(x1 · x6, 0), 0.1)` at the entries `(i, j)` with `x1[i, 0] = x5[0, j]` and a large negative constant at
    the others, multiplied by 1 in the rows whose maximum exceeds half that constant and by 0 in the other rows. -/
def out7 (x0 : Vec F S4000x128 .f32) (x1 : Vec F S4000x8 .f32) (x2 : Vec F S128x64 .f32) (x3 : Vec F S1x64 .f32) (x4 : Vec F S64x256 .bf16) (x5 : Vec F S1x256 .f32) (x6 : Vec F S8x256 .f32) : Vec F S4000x256 .f32 :=
  View.canon [⟨r7, k0_pay1 (k0_pay3 (View.ld x4 r4)) (k0_pay4 (View.ld x0 r0) (View.ld x2 r2) (View.ld x3 r3))
    (k0_pay5 (View.ld x1 r1) (View.ld x5 r5)) (k0_pay6 (View.ld x1 r1) (View.ld x6 r6)) (Named.named κ "neg_big" 0xFF333332#32)⟩]

/-- The one store is of the whole buffer, so it covers it. -/
theorem cover7 (p0 : Vec F S4000x256 .f32) (y : S4000x256.Idx) :
    ∃ pc ∈ ([⟨r7, p0⟩] : List (View.Piece (Elt F) S4000x256 .f32)), y ∈ pc.1.set :=
  View.cover_of_tiled [⟨r7, p0⟩] S4000x256.size (by rfl) y

/-! ## The body's triple -/

set_option maxHeartbeats 1000000 in
/-- The body on whole staging memrefs, the inputs' reading `x0 … x6` and the output's holding anything, runs to a
    state where the inputs' are as they were and the output's reads `out7 x0 … x6`. Its seven loads read the inputs'
    contents through the whole-buffer rectangles; the load of the output's buffer reads whatever it holds and the value
    is dropped; the store then overwrites every cell, so what the buffer reads afterwards is the store's payload alone. -/
theorem sound_kernel (c : Dev nD) (E : Set ℕ) (i : grid0.Coords) (arg1 : Memref sig .tc .vmem S4000x128 .f32) (harg1 : arg1.IsWhole) (arg2 : Memref sig .tc .vmem S4000x8 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x256 .bf16) (harg5 : arg5.IsWhole) (arg6 : Memref sig .tc .vmem S1x256 .f32) (harg6 : arg6.IsWhole) (arg7 : Memref sig .tc .vmem S8x256 .f32) (harg7 : arg7.IsWhole) (arg8 : Memref sig .tc .vmem S4000x256 .f32) (harg8 : arg8.IsWhole)
    (x0 : Vec F S4000x128 .f32) (x1 : Vec F S4000x8 .f32) (x2 : Vec F S128x64 .f32) (x3 : Vec F S1x64 .f32) (x4 : Vec F S64x256 .bf16) (x5 : Vec F S1x256 .f32) (x6 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the pipeline on core `c`: the arrays as the region finds them; after the body at point `t` each
    input's buffer still at its block and the output's at `out7` of the seven input blocks; the invariant is the scoped
    buffers that are no staging buffer and the pseudo-random register, which the body never touches; full shares; nothing
    owed to another core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (by projection: `V`, a fold over 55 operations, is not
    unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`: the invariant, the core's debt, and each window's current staging buffer
    at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, the output's holds something, so the body's triple
    applies at the seven blocks; the invariant and the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and in every final state each window's array holds what the write-backs of the proof data's
    `after` make of it and every other unscoped buffer holds what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- THE FRAME, at any `F`: @main runs, terminates, and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.FrameBits.lean ====
/-
  The frame of `Cert.Kernel`: every weakly fair execution of @main on the TensorCores terminates, and the seven
  argument arrays end as they were launched.

  @main is a line of host operations followed by one pipelined region over a grid of 25 points. The region stages
  eight windows: seven inputs and one output. At a point the body reads each input window's staging buffer whole,
  also reads the output's staging buffer whole (a value it never uses), and overwrites the output's staging buffer
  whole with one value computed from the seven input blocks. So, at every point,

    * an input window's buffer holds that window's block of its array, whether the pipeline fetched it at this point or
      kept it from the point before (the windows fetched at the first point only have a constant block index);
    * the output window's buffer, after the body, is a closed function `out7` of the seven input blocks: the one
      store's payload laid over the whole buffer.

  With that as proof data the library's launch theorem gives the run, and the post of the run read at the argument
  arrays is the frame: two of them are arrays of input windows, which the pipeline only reads, and the other five are
  touched by neither the region nor any host operation (every host operation writes a fresh result buffer).
-/
import proofs.«143742_j69166153335044_2_alg».proof.Proof.Gen.Kernel.Launch
import proofs.«143742_j69166153335044_2_alg».proof.Proof.Gen.Kernel.Skeleton
import proofs.«143742_j69166153335044_2_alg».proof.Proof.Gen.Kernel.Points
import Idealize.ShloMosaic.Lib.Pipeline.FrameBody
import Idealize.ShloMosaic.Lib.Ring
import Idealize.ShloMosaic.Lib.Tactic

-- membership in a rectangle of 4000 × 256 coordinates is found by structural recursion on the coordinates
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch contents `m` run through the
    55 host operations in order, each overwriting its own result buffer with a function of its operands. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region, then nothing: so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes its own result buffer, and `main_arg0` is the result of none: the region finds it as
    launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg1` is the result of none: the region finds it as
    launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg2` is the result of none: the region finds it as
    launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg3` is the result of none: the region finds it as
    launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg4` is the result of none: the region finds it as
    launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg5` is the result of none: the region finds it as
    launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Every host operation writes its own result buffer, and `main_arg6` is the result of none: the region finds it as
    launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`: the rectangle of its array (as the region finds the array, `V`) that the window's
    index map selects at the point's coordinates, read as a tensor of the block's shape. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, for any proof data over the arrays
    `V` whose body leaves that block in place. At a point that fetches the window the transfer has just put the block
    there; at a point that does not, the block index has not moved since the point before, whose block the body left in
    the buffer. The window is uncut and has no idle point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, for any proof data over the arrays
    `V` whose body leaves that block in place. At a point that fetches the window the transfer has just put the block
    there; at a point that does not, the block index has not moved since the point before, whose block the body left in
    the buffer. The window is uncut and has no idle point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, for any proof data over the arrays
    `V` whose body leaves that block in place. At a point that fetches the window the transfer has just put the block
    there; at a point that does not, the block index has not moved since the point before, whose block the body left in
    the buffer. The window is uncut and has no idle point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, for any proof data over the arrays
    `V` whose body leaves that block in place. At a point that fetches the window the transfer has just put the block
    there; at a point that does not, the block index has not moved since the point before, whose block the body left in
    the buffer. The window is uncut and has no idle point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, for any proof data over the arrays
    `V` whose body leaves that block in place. At a point that fetches the window the transfer has just put the block
    there; at a point that does not, the block index has not moved since the point before, whose block the body left in
    the buffer. The window is uncut and has no idle point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, for any proof data over the arrays
    `V` whose body leaves that block in place. At a point that fetches the window the transfer has just put the block
    there; at a point that does not, the block index has not moved since the point before, whose block the body left in
    the buffer. The window is uncut and has no idle point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, for any proof data over the arrays
    `V` whose body leaves that block in place. At a point that fetches the window the transfer has just put the block
    there; at a point that does not, the block index has not moved since the point before, whose block the body left in
    the buffer. The window is uncut and has no idle point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from the run's post -/

/-- The run's post says: every array of a window holds what the pipeline's write-backs make of it (for an input
    window, which is never written back, its contents at the region's entry), and every other unscoped buffer holds its
    contents at the region's entry. `main_arg2` and `main_arg5` are the arrays of input windows 0 and 2; the other five
    arguments are arrays of no window. Each is then at its launch contents, no host operation having written it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c)⟩) h

/-! ## The body's accesses -/

/-- The whole of window 0's staging buffer. -/
abbrev r0 : Rect S4000x128 := Rect.unit (s := S4000x128) ![0, 0] S4000x128.size inb_S4000x128_S4000x128_0_0
/-- The whole of window 1's staging buffer. -/
abbrev r1 : Rect S4000x8 := Rect.unit (s := S4000x8) ![0, 0] S4000x8.size inb_S4000x8_S4000x8_0_0
/-- The whole of window 2's staging buffer. -/
abbrev r2 : Rect S128x64 := Rect.unit (s := S128x64) ![0, 0] S128x64.size inb_S128x64_S128x64_0_0
/-- The whole of window 3's staging buffer. -/
abbrev r3 : Rect S1x64 := Rect.unit (s := S1x64) ![0, 0] S1x64.size inb_S1x64_S1x64_0_0
/-- The whole of window 4's staging buffer. -/
abbrev r4 : Rect S64x256 := Rect.unit (s := S64x256) ![0, 0] S64x256.size inb_S64x256_S64x256_0_0
/-- The whole of window 5's staging buffer. -/
abbrev r5 : Rect S1x256 := Rect.unit (s := S1x256) ![0, 0] S1x256.size inb_S1x256_S1x256_0_0
/-- The whole of window 6's staging buffer. -/
abbrev r6 : Rect S8x256 := Rect.unit (s := S8x256) ![0, 0] S8x256.size inb_S8x256_S8x256_0_0
/-- The whole of window 7's staging buffer. -/
abbrev r7 : Rect S4000x256 := Rect.unit (s := S4000x256) ![0, 0] S4000x256.size inb_S4000x256_S4000x256_0_0

/-! ## What the body leaves in the output window's buffer -/

/-- The output window's staging buffer after the body, as a function of the seven input blocks: the one store's payload
    over the whole buffer. With `x0 … x6` the blocks of windows 0 … 6, the payload is the entrywise product of
    `bf16(P) · x4` — `P` the rows of `bf16(x0) · bf16(x2) + x3` each divided by its Euclidean norm, the norm floored
    at a small positive constant — and of a weight: the softmax along each row of the matrix that is
    `−max(√max(x1 · x6, 0), 0.1)` at the entries `(i, j)` with `x1[i, 0] = x5[0, j]` and a large negative constant at
    the others, multiplied by 1 in the rows whose maximum exceeds half that constant and by 0 in the other rows. -/
def out7 (x0 : Vec F S4000x128 .f32) (x1 : Vec F S4000x8 .f32) (x2 : Vec F S128x64 .f32) (x3 : Vec F S1x64 .f32) (x4 : Vec F S64x256 .bf16) (x5 : Vec F S1x256 .f32) (x6 : Vec F S8x256 .f32) : Vec F S4000x256 .f32 :=
  View.canon [⟨r7, k0_pay1 (k0_pay3 (View.ld x4 r4)) (k0_pay4 (View.ld x0 r0) (View.ld x2 r2) (View.ld x3 r3))
    (k0_pay5 (View.ld x1 r1) (View.ld x5 r5)) (k0_pay6 (View.ld x1 r1) (View.ld x6 r6)) (Scalar.ofBits .f32 0xFF333332#32)⟩]

/-- The one store is of the whole buffer, so it covers it. -/
theorem cover7 (p0 : Vec F S4000x256 .f32) (y : S4000x256.Idx) :
    ∃ pc ∈ ([⟨r7, p0⟩] : List (View.Piece (Elt F) S4000x256 .f32)), y ∈ pc.1.set :=
  View.cover_of_tiled [⟨r7, p0⟩] S4000x256.size (by rfl) y

/-! ## The body's triple -/

set_option maxHeartbeats 1000000 in
/-- The body on whole staging memrefs, the inputs' reading `x0 … x6` and the output's holding anything, runs to a
    state where the inputs' are as they were and the output's reads `out7 x0 … x6`. Its seven loads read the inputs'
    contents through the whole-buffer rectangles; the load of the output's buffer reads whatever it holds and the value
    is dropped; the store then overwrites every cell, so what the buffer reads afterwards is the store's payload alone. -/
theorem sound_kernel (c : Dev nD) (E : Set ℕ) (i : grid0.Coords) (arg1 : Memref sig .tc .vmem S4000x128 .f32) (harg1 : arg1.IsWhole) (arg2 : Memref sig .tc .vmem S4000x8 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x256 .bf16) (harg5 : arg5.IsWhole) (arg6 : Memref sig .tc .vmem S1x256 .f32) (harg6 : arg6.IsWhole) (arg7 : Memref sig .tc .vmem S8x256 .f32) (harg7 : arg7.IsWhole) (arg8 : Memref sig .tc .vmem S4000x256 .f32) (harg8 : arg8.IsWhole)
    (x0 : Vec F S4000x128 .f32) (x1 : Vec F S4000x8 .f32) (x2 : Vec F S128x64 .f32) (x3 : Vec F S1x64 .f32) (x4 : Vec F S64x256 .bf16) (x5 : Vec F S1x256 .f32) (x6 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the pipeline on core `c`: the arrays as the region finds them; after the body at point `t` each
    input's buffer still at its block and the output's at `out7` of the seven input blocks; the invariant is the scoped
    buffers that are no staging buffer and the pseudo-random register, which the body never touches; full shares; nothing
    owed to another core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (by projection: `V`, a fold over 55 operations, is not
    unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = out7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`: the invariant, the core's debt, and each window's current staging buffer
    at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, the output's holds something, so the body's triple
    applies at the seven blocks; the invariant and the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and in every final state each window's array holds what the write-backs of the proof data's
    `after` make of it and every other unscoped buffer holds what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- THE FRAME, at any `F`: @main runs, terminates, and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.HostTerms.lean ====
/-
  The arrays the kernel's windows are cut from, as functions of the program's arguments.

  Five of the seven input windows are not arguments: the host computes them before the region —
  the bias as one row, the centroid projections scaled by their confidences and transposed, the centroids' batch
  numbers as one row of reals, the eight-row matrix whose product with a packed cluster row is a squared distance,
  and the eight-column packing of each cluster's coordinates. Each is defined here by the operations that write it,
  and then read entry by entry.
-/
import proofs.«143742_j69166153335044_2_alg».proof.Proof.Gen.KernelIdeal
import proofs.«143742_j69166153335044_2_alg».proof.Proof.LibRowMax
import proofs.«143742_j69166153335044_2_alg».proof.Proof.LibColumn
import Idealize.ShloMosaic.Lib.ValueLayout
import Idealize.ShloMosaic.Lib.Pipeline.Value
import Idealize.ShloMosaic.PureOps.Ideal.Laws

noncomputable section

namespace Cert.KernelIdeal.Staged

open Cert.KernelIdeal Cert.KernelIdeal.Gen Idealize.ShloMosaic Idealize.ShloMosaic.ValueIdx

variable {F : FTy → Type} [FloatOps F]

/-- The bias as a row `[1, 64]`. -/
def biasRow (x6 : S64.Idx → F .f32) : S1x64.Idx → F .f32 :=
  shapeCast S1x64 x6 shapeCasts_S64_S1x64

/-- The centroids' projections `conf · (feats · W + b)`, `[256, 64]`. -/
def cen (x3 : S256x128.Idx → F .f32) (x4 : S256x1.Idx → F .f32) (x5 : S128x64.Idx → F .f32) (x6 : S64.Idx → F .f32) :
    S256x64.Idx → F .f32 :=
  mulf (broadcastInDim S256x64 ![0, 1] bcast_S256x1_S256x64_0_1 x4)
    (addf (Host.dotGeneral dot_S256x128_S128x64_S256x64_1_0_0_1_n_n none x3 x5)
      (broadcastInDim S256x64 ![0, 1] bcast_S1x64_S256x64_0_1 (broadcastInDim S1x64 ![1] bcast_S64_S1x64_1 x6)))

/-- Those projections transposed and narrowed: the window the similarity product reads, `[64, 256]`. -/
def cenT (x3 : S256x128.Idx → F .f32) (x4 : S256x1.Idx → F .f32) (x5 : S128x64.Idx → F .f32) (x6 : S64.Idx → F .f32) :
    S64x256.Idx → F .bf16 :=
  truncf .bf16 (transpose S64x256 [1, 0] (cen x3 x4 x5 x6) transposes_S256x64_S64x256_1_0) bitsLt_bf16_f32

/-- The centroids' batch numbers as one row of reals, `[1, 256]`. -/
def cenBatch (x1 : S256x4.Idx → BitVec 32) : S1x256.Idx → F .f32 :=
  sitofp .f32 (shapeCast S1x256 (shapeCast S256 (extractStridedSlice S256x1 ![0, 0] x1 slices_S256x4_S256x1_0_0)
    shapeCasts_S256x1_S256) shapeCasts_S256_S1x256)

/-- The centroids' spatial coordinates as reals, `[256, 3]`. -/
def cenXyz (x1 : S256x4.Idx → BitVec 32) : S256x3.Idx → F .f32 :=
  sitofp .f32 (extractStridedSlice S256x3 ![0, 1] x1 slices_S256x4_S256x3_0_1)

/-- One coordinate of every centroid times `-2`, as a row. -/
def cenCoordRow (x1 : S256x4.Idx → BitVec 32) (o : Fin 2 → Nat) (h : S256x3.Slices o S256x1) : S1x256.Idx → F .f32 :=
  shapeCast S1x256 (mulf (broadcastInDim S256 ![] bcast_S_S256 (constant S_ .f32 0xC0000000#32))
    (shapeCast S256 (extractStridedSlice S256x1 o (cenXyz (F := F) x1) h) shapeCasts_S256x1_S256)) shapeCasts_S256_S1x256

/-- The centroids' squared norms as a row. -/
def cenSqRow (x1 : S256x4.Idx → BitVec 32) : S1x256.Idx → F .f32 :=
  shapeCast S1x256 (Host.reduceAdd (mulf (cenXyz (F := F) x1) (cenXyz (F := F) x1)) (constant S_ .f32 0x00000000#32)
    reducesTo_S256x3_S256_d1 h_S_) shapeCasts_S256_S1x256

/-- A constant row. -/
def constRow (w : BitVec 32) : S1x256.Idx → F .f32 :=
  broadcastInDim S1x256 ![] bcast_S_S1x256 (constant S_ .f32 w)

/-- The eight-row matrix of the distance product: rows `0, -2·x, -2·y, -2·z, 1, |e|², 0, 0`. -/
def distMat (x1 : S256x4.Idx → BitVec 32) : S8x256.Idx → F .f32 :=
  concatenate S8x256 0 [⟨S1x256, constRow 0x00000000#32⟩, ⟨S1x256, cenCoordRow x1 ![0, 0] slices_S256x3_S256x1_0_0⟩,
    ⟨S1x256, cenCoordRow x1 ![0, 1] slices_S256x3_S256x1_0_1⟩, ⟨S1x256, cenCoordRow x1 ![0, 2] slices_S256x3_S256x1_0_2⟩,
    ⟨S1x256, constRow 0x3F800000#32⟩, ⟨S1x256, cenSqRow x1⟩, ⟨S1x256, constRow 0x00000000#32⟩,
    ⟨S1x256, constRow 0x00000000#32⟩] concatenates_S1x256_S1x256_S1x256_S1x256_S1x256_S1x256_S1x256_S1x256_S8x256_d0

/-- The clusters' spatial coordinates as reals, `[100000, 3]`. -/
def cluXyz (x0 : S100000x4.Idx → BitVec 32) : S100000x3.Idx → F .f32 :=
  sitofp .f32 (extractStridedSlice S100000x3 ![0, 1] x0 slices_S100000x4_S100000x3_0_1)

/-- A constant column. -/
def constCol (w : BitVec 32) : S100000x1.Idx → F .f32 :=
  broadcastInDim S100000x1 ![] bcast_S_S100000x1 (constant S_ .f32 w)

/-- The clusters' batch numbers as a column of reals. -/
def cluBatchCol (x0 : S100000x4.Idx → BitVec 32) : S100000x1.Idx → F .f32 :=
  sitofp .f32 (extractStridedSlice S100000x1 ![0, 0] x0 slices_S100000x4_S100000x1_0_0)

/-- The clusters' squared norms as a column. -/
def cluSqCol (x0 : S100000x4.Idx → BitVec 32) : S100000x1.Idx → F .f32 :=
  broadcastInDim S100000x1 ![0] bcast_S100000_S100000x1_0
    (Host.reduceAdd (mulf (cluXyz (F := F) x0) (cluXyz (F := F) x0)) (constant S_ .f32 0x00000000#32)
      reducesTo_S100000x3_S100000_d1 h_S_)

/-- Each cluster's packed row: `batch, x, y, z, |c|², 1, 0, 0`. -/
def packed (x0 : S100000x4.Idx → BitVec 32) : S100000x8.Idx → F .f32 :=
  concatenate S100000x8 1 [⟨S100000x1, cluBatchCol x0⟩,
    ⟨S100000x3, cluXyz x0⟩,
    ⟨S100000x1, cluSqCol x0⟩,
    ⟨S100000x1, constCol 0x3F800000#32⟩, ⟨S100000x1, constCol 0x00000000#32⟩, ⟨S100000x1, constCol 0x00000000#32⟩]
    concatenates_S100000x1_S100000x3_S100000x1_S100000x1_S100000x1_S100000x1_S100000x8_d1

end Cert.KernelIdeal.Staged

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«143742_j69166153335044_2_alg».proof.Proof.LibColumn
import proofs.«143742_j69166153335044_2_alg».proof.Proof.LibLastAxis
import proofs.«143742_j69166153335044_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.HostRead.lean ====
/-
  The host-computed window arrays read entry by entry, on the extended reals.

  An int32 word converted to a float denotes its signed value exactly, so every entry below is a real number:
  a coordinate, a product of coordinates with the constant `-2`, a sum of three squares, or a constant.
-/
import proofs.«143742_j69166153335044_2_alg».proof.Proof.HostTerms
import proofs.«143742_j69166153335044_2_alg».proof.Proof.LibLogSoftmax

noncomputable section

namespace Cert.KernelIdeal.Staged

open Cert.KernelIdeal Cert.KernelIdeal.Gen Idealize.ShloMosaic Idealize.ShloMosaic.ValueIdx
open Cert.LibRowMax Cert.LibColumn Cert.LibLogSoftmax

/-- The signed value of an int32 word, as an extended real. -/
abbrev toR (w : BitVec 32) : EReal := ((w.toInt : ℝ) : EReal)

/-- An `[a, 1]` column cast to a vector `[a]` reads, at `i`, the column's entry in row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A scalar constant spread over a vector reads the constant everywhere. -/
theorem splat1_apply {a : ℕ} (w : BitVec 32) (h : (⟨0, ![]⟩ : Shape).BroadcastsInDim ⟨1, ![a]⟩ ![]) (i : Fin a) :
    broadcastInDim ⟨1, ![a]⟩ ![] h (constant (F := Ideal) ⟨0, ![]⟩ .f32 w) (ix1 i) = Ideal.ofBits .f32 w :=
  broadcastInDim_apply _ h _ (ix1 i) ix0 (fun ax => ax.elim0)

/-- A scalar constant spread over a matrix reads the constant everywhere. -/
theorem splat2_apply {a b : ℕ} (w : BitVec 32) (h : (⟨0, ![]⟩ : Shape).BroadcastsInDim ⟨2, ![a, b]⟩ ![]) (i : Fin a) (j : Fin b) :
    broadcastInDim ⟨2, ![a, b]⟩ ![] h (constant (F := Ideal) ⟨0, ![]⟩ .f32 w) (ix2 i j) = Ideal.ofBits .f32 w :=
  broadcastInDim_apply _ h _ (ix2 i j) ix0 (fun ax => ax.elim0)

/-! ## The small windows -/

/-- The bias row at `(0, d)` is the bias at `d`. -/
theorem biasRow_apply (x6 : S64.Idx → Ideal .f32) (d : Fin 64) :
    biasRow (F := Ideal) x6 (ix2 (0 : Fin 1) d) = x6 (ix1 d) :=
  shapeCast_a_1a_apply x6 shapeCasts_S64_S1x64 0 d

/-- The transposed projections at `(d, j)` are the projections at `(j, d)`. -/
theorem cenT_apply (x3 : S256x128.Idx → Ideal .f32) (x4 : S256x1.Idx → Ideal .f32) (x5 : S128x64.Idx → Ideal .f32)
    (x6 : S64.Idx → Ideal .f32) (d : Fin 64) (j : Fin 256) :
    cenT (F := Ideal) x3 x4 x5 x6 (ix2 d j) = cen (F := Ideal) x3 x4 x5 x6 (ix2 j d) :=
  transpose_ix2_apply (cen (F := Ideal) x3 x4 x5 x6) transposes_S256x64_S64x256_1_0 d j

/-- The batch row at `(0, j)` is centroid `j`'s batch number. -/
theorem cenBatch_apply (x1 : S256x4.Idx → BitVec 32) (j : Fin 256) :
    cenBatch (F := Ideal) x1 (ix2 (0 : Fin 1) j) = toR (x1 (ix2 j (0 : Fin 4))) := by
  show FloatOps.sitofp (F := Ideal) .f32 (shapeCast S1x256 _ shapeCasts_S256_S1x256 (ix2 (0 : Fin 1) j)) = _
  rw [shapeCast_a_1a_apply _ shapeCasts_S256_S1x256 0 j, shapeCast_a1_a_apply _ shapeCasts_S256x1_S256 j,
    slice2_axis1_apply 0 x1 slices_S256x4_S256x1_0_0 j (0 : Fin 1) (0 : Fin 4) rfl]
  rfl

/-- A centroid's spatial coordinate `a` is column `a + 1` of its row. -/
theorem cenXyz_apply (x1 : S256x4.Idx → BitVec 32) (j : Fin 256) (a : Fin 3) :
    cenXyz (F := Ideal) x1 (ix2 j a) = toR (x1 (ix2 j (⟨1 + a.val, by omega⟩ : Fin 4))) := by
  show FloatOps.sitofp (F := Ideal) .f32 (extractStridedSlice S256x3 ![0, 1] x1 slices_S256x4_S256x3_0_1 (ix2 j a)) = _
  rw [slice2_axis1_apply 1 x1 slices_S256x4_S256x3_0_1 j a (⟨1 + a.val, by omega⟩ : Fin 4) rfl]
  rfl

/-- A cluster's spatial coordinate `a` is column `a + 1` of its row. -/
theorem cluXyz_apply (x0 : S100000x4.Idx → BitVec 32) (n : Fin 100000) (a : Fin 3) :
    cluXyz (F := Ideal) x0 (ix2 n a) = toR (x0 (ix2 n (⟨1 + a.val, by omega⟩ : Fin 4))) := by
  show FloatOps.sitofp (F := Ideal) .f32 (extractStridedSlice S100000x3 ![0, 1] x0 slices_S100000x4_S100000x3_0_1 (ix2 n a)) = _
  rw [slice2_axis1_apply 1 x0 slices_S100000x4_S100000x3_0_1 n a (⟨1 + a.val, by omega⟩ : Fin 4) rfl]
  rfl

/-- The clusters' batch column at `(n, 0)` is cluster `n`'s batch number. -/
theorem cluBatchCol_apply (x0 : S100000x4.Idx → BitVec 32) (n : Fin 100000) :
    cluBatchCol (F := Ideal) x0 (ix2 n (0 : Fin 1)) = toR (x0 (ix2 n (0 : Fin 4))) := by
  show FloatOps.sitofp (F := Ideal) .f32 (extractStridedSlice S100000x1 ![0, 0] x0 slices_S100000x4_S100000x1_0_0 (ix2 n (0 : Fin 1))) = _
  rw [slice2_axis1_apply 0 x0 slices_S100000x4_S100000x1_0_0 n (0 : Fin 1) (0 : Fin 4) rfl]
  rfl

/-- A constant row reads its constant. -/
theorem constRow_apply (w : BitVec 32) (u : Fin 1) (j : Fin 256) :
    constRow (F := Ideal) w (ix2 u j) = Ideal.ofBits .f32 w :=
  splat2_apply w bcast_S_S1x256 u j

/-- A constant column reads its constant. -/
theorem constCol_apply (w : BitVec 32) (n : Fin 100000) (u : Fin 1) :
    constCol (F := Ideal) w (ix2 n u) = Ideal.ofBits .f32 w :=
  splat2_apply w bcast_S_S100000x1 n u

/-- The row of one coordinate times `-2`, at `(0, j)`. -/
theorem cenCoordRow_apply (x1 : S256x4.Idx → BitVec 32) (o : Nat) (h : S256x3.Slices ![0, o] S256x1) (a : Fin 3) (ha : a.val = o)
    (j : Fin 256) :
    cenCoordRow (F := Ideal) x1 ![0, o] h (ix2 (0 : Fin 1) j)
      = Ideal.ofBits .f32 0xC0000000#32 * cenXyz (F := Ideal) x1 (ix2 j a) := by
  unfold cenCoordRow
  rw [shapeCast_a_1a_apply _ shapeCasts_S256_S1x256 0 j]
  show broadcastInDim S256 ![] bcast_S_S256 (constant (F := Ideal) S_ .f32 0xC0000000#32) (ix1 j)
      * shapeCast S256 _ shapeCasts_S256x1_S256 (ix1 j) = _
  rw [splat1_apply _ bcast_S_S256 j, shapeCast_a1_a_apply _ shapeCasts_S256x1_S256 j,
    slice2_axis1_apply o (cenXyz (F := Ideal) x1) h j (0 : Fin 1) a (by rw [ha]; rfl)]

/-- The row of squared norms, at `(0, j)`: zero plus the three squares. -/
theorem cenSqRow_apply (x1 : S256x4.Idx → BitVec 32) (j : Fin 256) :
    cenSqRow (F := Ideal) x1 (ix2 (0 : Fin 1) j)
      = Ideal.ofBits .f32 0x00000000#32 + ∑ a : Fin 3, cenXyz (F := Ideal) x1 (ix2 j a) * cenXyz (F := Ideal) x1 (ix2 j a) := by
  unfold cenSqRow
  rw [shapeCast_a_1a_apply _ shapeCasts_S256_S1x256 0 j]
  simp only [Host.reduceAdd, Ideal.hostReduceAdd_def]
  rw [Ideal.hostReduceAdd_single reducesTo_S256x3_S256_d1 (by decide)]
  refine congrArg (_ + ·) (Finset.sum_congr rfl fun a _ => ?_)
  show mulf (cenXyz (F := Ideal) x1) (cenXyz (F := Ideal) x1) _ = _
  rw [show (Shape.Reduces.lift (s := S256x3) (t := S256) (by decide) (ix1 j) a) = ix2 j a from
    funext fun c => Fin.ext (by match c with | ⟨0, _⟩ => rfl | ⟨1, _⟩ => rfl)]
  rfl

/-- The column of squared norms, at `(n, 0)`: zero plus the three squares. -/
theorem cluSqCol_apply (x0 : S100000x4.Idx → BitVec 32) (n : Fin 100000) :
    cluSqCol (F := Ideal) x0 (ix2 n (0 : Fin 1))
      = Ideal.ofBits .f32 0x00000000#32 + ∑ a : Fin 3, cluXyz (F := Ideal) x0 (ix2 n a) * cluXyz (F := Ideal) x0 (ix2 n a) := by
  unfold cluSqCol
  rw [broadcastInDim_a_a1_apply _ bcast_S100000_S100000x1_0 n 0]
  simp only [Host.reduceAdd, Ideal.hostReduceAdd_def]
  rw [Ideal.hostReduceAdd_single reducesTo_S100000x3_S100000_d1 (by decide)]
  refine congrArg (_ + ·) (Finset.sum_congr rfl fun a _ => ?_)
  show mulf (cluXyz (F := Ideal) x0) (cluXyz (F := Ideal) x0) _ = _
  rw [show (Shape.Reduces.lift (s := S100000x3) (t := S100000) (by decide) (ix1 n) a) = ix2 n a from
    funext fun c => Fin.ext (by match c with | ⟨0, _⟩ => rfl | ⟨1, _⟩ => rfl)]
  rfl

/-! ## The eight rows of the distance matrix -/

theorem distMat_row0 (x1 : S256x4.Idx → BitVec 32) (j : Fin 256) :
    distMat (F := Ideal) x1 (ix2 (0 : Fin 8) j) = (constRow 0x00000000#32 : S1x256.Idx → Ideal .f32) (ix2 (0 : Fin 1) j) := by
  unfold distMat
  refine concatenate_apply_piece (0 : Fin 2) _ _ (ix2 (0 : Fin 8) j) 0 ?_ S1x256 _ ?_ rfl 0 ?_ (ix2 (0 : Fin 1) j) ?_ ?_
  · simp
  · rfl
  · rfl
  · intro b hb
    match b with | ⟨0, _⟩ => exact absurd rfl hb | ⟨1, _⟩ => rfl
  · rfl

theorem distMat_row1 (x1 : S256x4.Idx → BitVec 32) (j : Fin 256) :
    distMat (F := Ideal) x1 (ix2 (1 : Fin 8) j) = (cenCoordRow x1 ![0, 0] slices_S256x3_S256x1_0_0 : S1x256.Idx → Ideal .f32) (ix2 (0 : Fin 1) j) := by
  unfold distMat
  refine concatenate_apply_piece (0 : Fin 2) _ _ (ix2 (1 : Fin 8) j) 1 ?_ S1x256 _ ?_ rfl 1 ?_ (ix2 (0 : Fin 1) j) ?_ ?_
  · simp
  · rfl
  · rfl
  · intro b hb
    match b with | ⟨0, _⟩ => exact absurd rfl hb | ⟨1, _⟩ => rfl
  · rfl

theorem distMat_row2 (x1 : S256x4.Idx → BitVec 32) (j : Fin 256) :
    distMat (F := Ideal) x1 (ix2 (2 : Fin 8) j) = (cenCoordRow x1 ![0, 1] slices_S256x3_S256x1_0_1 : S1x256.Idx → Ideal .f32) (ix2 (0 : Fin 1) j) := by
  unfold distMat
  refine concatenate_apply_piece (0 : Fin 2) _ _ (ix2 (2 : Fin 8) j) 2 ?_ S1x256 _ ?_ rfl 2 ?_ (ix2 (0 : Fin 1) j) ?_ ?_
  · simp
  · rfl
  · rfl
  · intro b hb
    match b with | ⟨0, _⟩ => exact absurd rfl hb | ⟨1, _⟩ => rfl
  · rfl

theorem distMat_row3 (x1 : S256x4.Idx → BitVec 32) (j : Fin 256) :
    distMat (F := Ideal) x1 (ix2 (3 : Fin 8) j) = (cenCoordRow x1 ![0, 2] slices_S256x3_S256x1_0_2 : S1x256.Idx → Ideal .f32) (ix2 (0 : Fin 1) j) := by
  unfold distMat
  refine concatenate_apply_piece (0 : Fin 2) _ _ (ix2 (3 : Fin 8) j) 3 ?_ S1x256 _ ?_ rfl 3 ?_ (ix2 (0 : Fin 1) j) ?_ ?_
  · simp
  · rfl
  · rfl
  · intro b hb
    match b with | ⟨0, _⟩ => exact absurd rfl hb | ⟨1, _⟩ => rfl
  · rfl

theorem distMat_row4 (x1 : S256x4.Idx → BitVec 32) (j : Fin 256) :
    distMat (F := Ideal) x1 (ix2 (4 : Fin 8) j) = (constRow 0x3F800000#32 : S1x256.Idx → Ideal .f32) (ix2 (0 : Fin 1) j) := by
  unfold distMat
  refine concatenate_apply_piece (0 : Fin 2) _ _ (ix2 (4 : Fin 8) j) 4 ?_ S1x256 _ ?_ rfl 4 ?_ (ix2 (0 : Fin 1) j) ?_ ?_
  · simp
  · rfl
  · rfl
  · intro b hb
    match b with | ⟨0, _⟩ => exact absurd rfl hb | ⟨1, _⟩ => rfl
  · rfl

theorem distMat_row5 (x1 : S256x4.Idx → BitVec 32) (j : Fin 256) :
    distMat (F := Ideal) x1 (ix2 (5 : Fin 8) j) = (cenSqRow x1 : S1x256.Idx → Ideal .f32) (ix2 (0 : Fin 1) j) := by
  unfold distMat
  refine concatenate_apply_piece (0 : Fin 2) _ _ (ix2 (5 : Fin 8) j) 5 ?_ S1x256 _ ?_ rfl 5 ?_ (ix2 (0 : Fin 1) j) ?_ ?_
  · simp
  · rfl
  · rfl
  · intro b hb
    match b with | ⟨0, _⟩ => exact absurd rfl hb | ⟨1, _⟩ => rfl
  · rfl

theorem distMat_row6 (x1 : S256x4.Idx → BitVec 32) (j : Fin 256) :
    distMat (F := Ideal) x1 (ix2 (6 : Fin 8) j) = (constRow 0x00000000#32 : S1x256.Idx → Ideal .f32) (ix2 (0 : Fin 1) j) := by
  unfold distMat
  refine concatenate_apply_piece (0 : Fin 2) _ _ (ix2 (6 : Fin 8) j) 6 ?_ S1x256 _ ?_ rfl 6 ?_ (ix2 (0 : Fin 1) j) ?_ ?_
  · simp
  · rfl
  · rfl
  · intro b hb
    match b with | ⟨0, _⟩ => exact absurd rfl hb | ⟨1, _⟩ => rfl
  · rfl

theorem distMat_row7 (x1 : S256x4.Idx → BitVec 32) (j : Fin 256) :
    distMat (F := Ideal) x1 (ix2 (7 : Fin 8) j) = (constRow 0x00000000#32 : S1x256.Idx → Ideal .f32) (ix2 (0 : Fin 1) j) := by
  unfold distMat
  refine concatenate_apply_piece (0 : Fin 2) _ _ (ix2 (7 : Fin 8) j) 7 ?_ S1x256 _ ?_ rfl 7 ?_ (ix2 (0 : Fin 1) j) ?_ ?_
  · simp
  · rfl
  · rfl
  · intro b hb
    match b with | ⟨0, _⟩ => exact absurd rfl hb | ⟨1, _⟩ => rfl
  · rfl

/-! ## The eight columns of a packed cluster row -/

theorem packed_col0 (x0 : S100000x4.Idx → BitVec 32) (n : Fin 100000) :
    packed (F := Ideal) x0 (ix2 n (0 : Fin 8)) = cluBatchCol (F := Ideal) x0 (ix2 n (0 : Fin 1)) := by
  unfold packed
  refine concatenate_apply_piece (1 : Fin 2) _ _ (ix2 n (0 : Fin 8)) 0 ?_ S100000x1 (cluBatchCol (F := Ideal) x0) ?_ rfl 0 ?_ (ix2 n (0 : Fin 1)) ?_ ?_
  · simp
  · rfl
  · rfl
  · intro b hb
    match b with | ⟨0, _⟩ => rfl | ⟨1, _⟩ => exact absurd rfl hb
  · rfl

theorem packed_col1 (x0 : S100000x4.Idx → BitVec 32) (n : Fin 100000) :
    packed (F := Ideal) x0 (ix2 n (1 : Fin 8)) = cluXyz (F := Ideal) x0 (ix2 n (0 : Fin 3)) := by
  unfold packed
  refine concatenate_apply_piece (1 : Fin 2) _ _ (ix2 n (1 : Fin 8)) 1 ?_ S100000x3 (cluXyz (F := Ideal) x0) ?_ rfl 1 ?_ (ix2 n (0 : Fin 3)) ?_ ?_
  · simp
  · rfl
  · rfl
  · intro b hb
    match b with | ⟨0, _⟩ => rfl | ⟨1, _⟩ => exact absurd rfl hb
  · rfl

theorem packed_col2 (x0 : S100000x4.Idx → BitVec 32) (n : Fin 100000) :
    packed (F := Ideal) x0 (ix2 n (2 : Fin 8)) = cluXyz (F := Ideal) x0 (ix2 n (1 : Fin 3)) := by
  unfold packed
  refine concatenate_apply_piece (1 : Fin 2) _ _ (ix2 n (2 : Fin 8)) 1 ?_ S100000x3 (cluXyz (F := Ideal) x0) ?_ rfl 1 ?_ (ix2 n (1 : Fin 3)) ?_ ?_
  · simp
  · rfl
  · rfl
  · intro b hb
    match b with | ⟨0, _⟩ => rfl | ⟨1, _⟩ => exact absurd rfl hb
  · rfl

theorem packed_col3 (x0 : S100000x4.Idx → BitVec 32) (n : Fin 100000) :
    packed (F := Ideal) x0 (ix2 n (3 : Fin 8)) = cluXyz (F := Ideal) x0 (ix2 n (2 : Fin 3)) := by
  unfold packed
  refine concatenate_apply_piece (1 : Fin 2) _ _ (ix2 n (3 : Fin 8)) 1 ?_ S100000x3 (cluXyz (F := Ideal) x0) ?_ rfl 1 ?_ (ix2 n (2 : Fin 3)) ?_ ?_
  · simp
  · rfl
  · rfl
  · intro b hb
    match b with | ⟨0, _⟩ => rfl | ⟨1, _⟩ => exact absurd rfl hb
  · rfl

theorem packed_col4 (x0 : S100000x4.Idx → BitVec 32) (n : Fin 100000) :
    packed (F := Ideal) x0 (ix2 n (4 : Fin 8)) = cluSqCol (F := Ideal) x0 (ix2 n (0 : Fin 1)) := by
  show packed (F := Ideal) x0 (ix2 n (⟨4, by omega⟩ : Fin 8)) = _
  unfold packed
  refine concatenate_apply_piece (1 : Fin 2) _ _ (ix2 n (⟨4, by omega⟩ : Fin 8)) 2 ?_ S100000x1 (cluSqCol (F := Ideal) x0) ?_ rfl (1 + 3) ?_ (ix2 n (0 : Fin 1)) ?_ ?_
  · simp
  · rfl
  · rfl
  · intro b hb
    match b with | ⟨0, _⟩ => rfl | ⟨1, _⟩ => exact absurd rfl hb
  · rfl

theorem packed_col5 (x0 : S100000x4.Idx → BitVec 32) (n : Fin 100000) :
    packed (F := Ideal) x0 (ix2 n (5 : Fin 8)) = constCol (F := Ideal) 0x3F800000#32 (ix2 n (0 : Fin 1)) := by
  unfold packed
  refine concatenate_apply_piece (1 : Fin 2) _ _ (ix2 n (5 : Fin 8)) 3 ?_ S100000x1 (constCol (F := Ideal) 0x3F800000#32) ?_ rfl 5 ?_ (ix2 n (0 : Fin 1)) ?_ ?_
  · simp
  · rfl
  · rfl
  · intro b hb
    match b with | ⟨0, _⟩ => rfl | ⟨1, _⟩ => exact absurd rfl hb
  · rfl

theorem packed_col6 (x0 : S100000x4.Idx → BitVec 32) (n : Fin 100000) :
    packed (F := Ideal) x0 (ix2 n (6 : Fin 8)) = constCol (F := Ideal) 0x00000000#32 (ix2 n (0 : Fin 1)) := by
  unfold packed
  refine concatenate_apply_piece (1 : Fin 2) _ _ (ix2 n (6 : Fin 8)) 4 ?_ S100000x1 (constCol (F := Ideal) 0x00000000#32) ?_ rfl 6 ?_ (ix2 n (0 : Fin 1)) ?_ ?_
  · simp
  · rfl
  · rfl
  · intro b hb
    match b with | ⟨0, _⟩ => rfl | ⟨1, _⟩ => exact absurd rfl hb
  · rfl

theorem packed_col7 (x0 : S100000x4.Idx → BitVec 32) (n : Fin 100000) :
    packed (F := Ideal) x0 (ix2 n (7 : Fin 8)) = constCol (F := Ideal) 0x00000000#32 (ix2 n (0 : Fin 1)) := by
  unfold packed
  refine concatenate_apply_piece (1 : Fin 2) _ _ (ix2 n (7 : Fin 8)) 5 ?_ S100000x1 (constCol (F := Ideal) 0x00000000#32) ?_ rfl 7 ?_ (ix2 n (0 : Fin 1)) ?_ ?_
  · simp
  · rfl
  · rfl
  · intro b hb
    match b with | ⟨0, _⟩ => rfl | ⟨1, _⟩ => exact absurd rfl hb
  · rfl

end Cert.KernelIdeal.Staged

end
-- ==== Proof.PointNorm.lean ====
/-
  One grid point, first part: the normalized cluster projection.

  A block of 4000 cluster rows is projected (`feats · W + b`), and each row is divided by its Euclidean norm, clamped
  below. Entry by entry this is the reference's normalized projection of the same cluster row: both are the same
  sums over the 128 features and the 64 projected coordinates, the zero the reference's sum of squares starts
  from adding nothing.
-/
import proofs.«143742_j69166153335044_2_alg».proof.Proof.Gen.KernelIdeal.Skeleton
import proofs.«143742_j69166153335044_2_alg».proof.Proof.Gen.ReferenceIdeal.Read
import proofs.«143742_j69166153335044_2_alg».proof.Proof.HostRead

noncomputable section

namespace Cert.KernelIdeal.Point

open Cert.KernelIdeal Cert.KernelIdeal.Gen Cert.KernelIdeal.Staged Idealize.ShloMosaic Idealize.ShloMosaic.ValueIdx
open Cert.LibRowMax Cert.LibColumn Cert.LibLogSoftmax Cert.ReferenceIdeal.Read

variable (x2 : S100000x128.Idx → Ideal .f32) (x5 : S128x64.Idx → Ideal .f32) (x6 : S64.Idx → Ideal .f32)
variable (bf : S4000x128.Idx → Ideal .f32) (bw : S128x64.Idx → Ideal .f32) (bb : S1x64.Idx → Ideal .f32)

/-- The block's projection `feats · W + b`. -/
def proj : S4000x64.Idx → Ideal .f32 :=
  addf (matmul dot_S4000x128_S128x64_S4000x64_1_0_0_1_n_n none (truncf .bf16 bf bitsLt_bf16_f32)
      (truncf .bf16 bw bitsLt_bf16_f32) (constant S4000x64 .f32 0x00000000#32))
    (broadcastTo S4000x64 (shapeCast S1x64 bb shapeCasts_S1x64_S1x64) broadcasts_S1x64_S4000x64)

/-- At `(r, d)` the projection is `Σ_k feats (r, k) · W (k, d) + b (0, d)`. -/
theorem proj_apply (r : Fin 4000) (d : Fin 64) :
    proj bf bw bb (ix2 r d) = (∑ k : Fin 128, bf (ix2 r k) * bw (ix2 k d)) + bb (ix2 (0 : Fin 1) d) := by
  show FloatOps.matmul dot_S4000x128_S128x64_S4000x64_1_0_0_1_n_n none _ _ _ (ix2 r d)
      + broadcastTo S4000x64 _ broadcasts_S1x64_S4000x64 (ix2 r d) = _
  rw [broadcastTo_1b_ab_apply _ broadcasts_S1x64_S4000x64 r d, shapeCast_self]
  exact congrArg (· + bb (ix2 (0 : Fin 1) d))
    (matmul_plain_apply (a := 4000) (k := 128) (b := 64) dot_S4000x128_S128x64_S4000x64_1_0_0_1_n_n.wf none
      (truncf .bf16 bf bitsLt_bf16_f32) (truncf .bf16 bw bitsLt_bf16_f32) r d)

/-- The block's rows are cluster rows `n`, the weights and the bias are the arguments: the projection is the reference's. -/
theorem proj_eq (n : Fin 100000) (r : Fin 4000) (hf : ∀ k, bf (ix2 r k) = x2 (ix2 n k))
    (hw : ∀ k d, bw (ix2 k d) = x5 (ix2 k d)) (hb : ∀ d, bb (ix2 (0 : Fin 1) d) = x6 (ix1 d)) (d : Fin 64) :
    proj bf bw bb (ix2 r d) = val_main_v3 (F := Ideal) x2 x5 x6 (ix2 n d) := by
  rw [proj_apply, val_main_v3_apply, val_main_v0_apply, val_main_v2_apply, val_main_v1_apply, hb]
  show _ = (∑ k : Fin 128, _) + _
  refine congrArg₂ (· + ·) (Finset.sum_congr rfl fun k _ => ?_) (congrArg x6 ?_)
  · rw [hf, hw]
    exact congrArg₂ (· * ·)
      (congrArg x2 (funext fun a => Fin.ext (by match a with | ⟨0, _⟩ => rfl | ⟨1, _⟩ => rfl)))
      (congrArg x5 (funext fun a => Fin.ext (by match a with | ⟨0, _⟩ => rfl | ⟨1, _⟩ => rfl)))
  · exact funext fun a => Fin.ext (by match a with | ⟨0, _⟩ => rfl)

/-- The kernel's normalized projection of the block, as the body computes it. -/
theorem pay4_apply (r : Fin 4000) (d : Fin 64) :
    k0_pay4 (F := Ideal) bf bw bb (ix2 r d)
      = Ideal.div (proj bf bw bb (ix2 r d))
          (max (Ideal.sqrt (∑ e : Fin 64, proj bf bw bb (ix2 r e) * proj bf bw bb (ix2 r e)))
            (Ideal.ofBits .f32 0x2B8CBCCC#32)) := by
  show Ideal.div (proj bf bw bb (ix2 r d))
      (broadcastTo S4000x64 (maximumf (sqrt (shapeCast S4000x1
        (multiReduction .add [1] S4000 (mulf (proj bf bw bb) (proj bf bw bb)) 0x00000000#32 reduces_S4000x64_S4000 (.inl rfl) rfl)
        shapeCasts_S4000_S4000x1)) (broadcast S4000x1 (Scalar.ofBits .f32 0x2B8CBCCC#32))) broadcasts_S4000x1_S4000x64 (ix2 r d)) = _
  rw [broadcastTo_a1_ab_apply _ broadcasts_S4000x1_S4000x64 r d]
  show Ideal.div _ (max (Ideal.sqrt (shapeCast S4000x1 _ shapeCasts_S4000_S4000x1 (ix2 r (0 : Fin 1)))) _) = _
  rw [shapeCast_a_a1_apply _ shapeCasts_S4000_S4000x1 r 0, sum_last_apply _ reduces_S4000x64_S4000 (.inl rfl) rfl r]
  rfl

/-- The kernel's normalized projection is the reference's, entry by entry. -/
theorem pay4_eq (n : Fin 100000) (r : Fin 4000) (hf : ∀ k, bf (ix2 r k) = x2 (ix2 n k))
    (hw : ∀ k d, bw (ix2 k d) = x5 (ix2 k d)) (hb : ∀ d, bb (ix2 (0 : Fin 1) d) = x6 (ix1 d)) (d : Fin 64) :
    k0_pay4 (F := Ideal) bf bw bb (ix2 r d) = val_main_v8 (F := Ideal) x2 x5 x6 (ix2 n d) := by
  have hp := proj_eq x2 x5 x6 bf bw bb n r hf hw hb
  rw [pay4_apply, val_main_v8_apply, val_main_v7_apply, val_main_v6_apply, val_main_v4_apply, val_main_call0_v2_apply,
    val_main_call0_v1_apply, val_main_v5_apply, val_main_cst_apply, val_main_call0_cst_apply]
  simp only [val_main_call0_v0_apply, Ideal.hostDivf_def, Ideal.hostUnary_sqrt_def, Ideal.maximumf_def, Ideal.mulf_def,
    Ideal.ofBits_def, Ideal.ofBits_zero_f32, zero_add, hp]
  refine congrArg (Ideal.div _) (congrArg (max · _) (congrArg Ideal.sqrt (Finset.sum_congr rfl fun e _ => ?_)))
  have he : idx_main_call0_v1 (idx_main_call0_v2 (idx_main_v7 (ix2 n d))) e = ix2 n e :=
    funext fun a => Fin.ext (by match a with | ⟨0, _⟩ => rfl | ⟨1, _⟩ => rfl)
  rw [he]

end Cert.KernelIdeal.Point

end
-- ==== Proof.Consts.lean ====
/-
  The float constants the two programs spell, as the extended reals their bit patterns denote.
-/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `-2.0` denotes the real `-2`. -/
theorem ofBits_neg_two : Ideal.ofBits .f32 0xC0000000#32 = ((-2 : ℝ) : EReal) := by
  simp [Ideal.ofBits, Ideal.ieee, -EReal.coe_mul]; norm_num

/-- The lower clamp of the distance (the float nearest one tenth) denotes a real number. -/
theorem ofBits_tenth : ∃ x : ℝ, Ideal.ofBits .f32 0x3DCCCCCD#32 = (x : EReal) := by
  simp [Ideal.ofBits, Ideal.ieee, -EReal.coe_mul]

/-- The pattern of minus infinity denotes `⊥`. -/
theorem ofBits_negInf : Ideal.ofBits .f32 0xFF800000#32 = ⊥ := by
  simp [Ideal.ofBits, Ideal.ieee]

end Cert.Consts

end
-- ==== Proof.LibMaskedSoftmax.lean ====
/-
  Extended-real facts about a masked softmax row.

  A row of logits `ℓ` over a finite index set has some lanes masked out: those hold `-∞`
  (`⊥`), every other lane holds a real number. With `M` the row maximum (the fold of `max`
  from `⊥`), `P d = exp (ℓ d - M)` and `S = ∑ d, P d`, one program forms `P j / S` and
  multiplies it by the 0/1 indicator of `⊥ < M`; another selects `P j / S` at the lanes that
  are not masked out and `0` at the masked ones. The two agree lane by lane
  (`masked_softmax_guard`). The arithmetic is that of the ideal float values: `exp ⊥ = 0`,
  `x / 0` an infinity or `⊥`, `x / y = x * y⁻¹` otherwise.

  Also here: the value of a comparison bit widened to an integer and converted to a float
  (`guard_eq`), and the conversion of a signed integer word to a float as an exact, finite
  and injective map (`sitofp_eq`, `sitofp_ne_bot`, `sitofp_ne_top`, `sitofp_inj`,
  `cmpf_oeq_sitofp`).
-/
import Idealize.ShloMosaic.PureOps.Ideal
import Idealize.ShloMosaic.PureOps.Ideal.Laws
import Mathlib.Data.EReal.Operations
import Mathlib.Data.Finset.Fold
import Mathlib.Algebra.Order.BigOperators.Group.Finset

open Idealize.ShloMosaic

namespace Cert.LibMaskedSoftmax

open scoped BigOperators

/-! ### The exponential of the ideal values -/

/-- The exponential of an extended real is never negative: `exp ⊥ = 0`, `exp ⊤ = ⊤`, and a real
    exponential is positive. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- `exp (⊥ - y) = 0` whatever `y` is: on the extended reals `⊥ - y = ⊥`, and `exp ⊥ = 0`. -/
theorem exp_bot_sub (y : EReal) : Ideal.exp (⊥ - y) = 0 := by
  rw [EReal.bot_sub, Ideal.exp_bot]

/-- `exp (x - x) = 1` at a real number `x` (neither infinity): `x - x = 0` and `exp 0 = 1`. -/
theorem exp_sub_self {x : EReal} (hb : x ≠ ⊥) (ht : x ≠ ⊤) : Ideal.exp (x - x) = 1 := by
  rw [EReal.sub_self ht hb, ← EReal.coe_zero, Ideal.exp_coe, Real.exp_zero, EReal.coe_one]

/-- A quotient with numerator `0` and a divisor other than `0` is `0`: it is `0 * y⁻¹`. -/
theorem div_zero_left {y : EReal} (hy : y ≠ 0) : Ideal.div 0 y = 0 := by
  rw [Ideal.div, if_neg hy, zero_mul]

/-! ### The row maximum -/

section Row
variable {ι : Type*} [Fintype ι] (ℓ : ι → EReal)

/-- Every lane is at most the row maximum. -/
theorem le_rowMax (j : ι) : ℓ j ≤ (Finset.univ : Finset ι).fold max ⊥ ℓ :=
  (Finset.le_fold_max (ℓ j)).mpr (Or.inr ⟨j, Finset.mem_univ j, le_rfl⟩)

/-- A row maximum above `-∞` is attained: some lane holds it. -/
theorem exists_eq_rowMax (h : ⊥ < (Finset.univ : Finset ι).fold max ⊥ ℓ) :
    ∃ d, ℓ d = (Finset.univ : Finset ι).fold max ⊥ ℓ := by
  rcases (Finset.le_fold_max ((Finset.univ : Finset ι).fold max ⊥ ℓ)).mp le_rfl with hb | ⟨d, _, hd⟩
  · exact absurd h (not_lt.mpr hb)
  · exact ⟨d, le_antisymm (le_rowMax ℓ d) hd⟩

/-- When no lane holds `+∞` and the row maximum `M` is above `-∞`, the sum of `exp (ℓ d - M)` over the row is
    at least `1`: the maximum is attained at a lane, it is a real number there, that lane's term is `exp 0 = 1`,
    and no term is negative. -/
theorem one_le_sum_exp (ht : ∀ j, ℓ j ≠ ⊤) (h : ⊥ < (Finset.univ : Finset ι).fold max ⊥ ℓ) :
    1 ≤ ∑ d, Ideal.exp (ℓ d - (Finset.univ : Finset ι).fold max ⊥ ℓ) := by
  obtain ⟨d0, hd0⟩ := exists_eq_rowMax ℓ h
  have h1 : Ideal.exp (ℓ d0 - (Finset.univ : Finset ι).fold max ⊥ ℓ) = 1 := by
    rw [← hd0]; exact exp_sub_self (hd0 ▸ h.ne') (ht d0)
  calc (1 : EReal) = Ideal.exp (ℓ d0 - (Finset.univ : Finset ι).fold max ⊥ ℓ) := h1.symm
    _ ≤ ∑ d, Ideal.exp (ℓ d - (Finset.univ : Finset ι).fold max ⊥ ℓ) :=
        Finset.single_le_sum (f := fun d => Ideal.exp (ℓ d - (Finset.univ : Finset ι).fold max ⊥ ℓ))
          (fun i _ => exp_nonneg _) (Finset.mem_univ d0)

/-- The masked softmax row, with the row maximum and the row sum named. `ℓ` holds `-∞` exactly at the lanes that are
    not `valid` and never `+∞`; `M` is the row maximum, `S` the sum of `exp (ℓ d - M)`. Then the quotient
    `exp (ℓ j - M) / S` times the indicator of `-∞ < M` is the quotient at a valid lane and `0` at any other.
    At a valid lane `ℓ j ≤ M` is above `-∞`, the indicator is `1`. At a lane that is not valid `ℓ j - M = -∞`, so the
    numerator is `exp (-∞) = 0`; the indicator `0` gives `0`, and the indicator `1` means `S ≥ 1`, so the quotient is
    `0 * S⁻¹ = 0`. -/
theorem masked_softmax_guard_of_eq (valid : ι → Prop) [DecidablePred valid]
    (hv : ∀ j, valid j → ℓ j ≠ ⊥) (hn : ∀ j, ¬ valid j → ℓ j = ⊥) (ht : ∀ j, ℓ j ≠ ⊤)
    (M S : EReal) (hM : M = (Finset.univ : Finset ι).fold max ⊥ ℓ) (hS : S = ∑ d, Ideal.exp (ℓ d - M)) (j : ι) :
    Ideal.div (Ideal.exp (ℓ j - M)) S * (if ⊥ < M then (1 : EReal) else 0)
      = if valid j then Ideal.div (Ideal.exp (ℓ j - M)) S else 0 := by
  by_cases hj : valid j
  · have hlt : ⊥ < M := lt_of_lt_of_le (bot_lt_iff_ne_bot.mpr (hv j hj)) (hM ▸ le_rowMax ℓ j)
    rw [if_pos hj, if_pos hlt, mul_one]
  · rw [if_neg hj, hn j hj, exp_bot_sub]
    by_cases hlt : ⊥ < M
    · have hS1 : (1 : EReal) ≤ S := by
        rw [hS, hM]; exact one_le_sum_exp ℓ ht (hM ▸ hlt)
      have hS0 : S ≠ 0 := (lt_of_lt_of_le zero_lt_one hS1).ne'
      rw [if_pos hlt, mul_one, div_zero_left hS0]
    · rw [if_neg hlt, mul_zero]

/-- The masked softmax row, spelled out: with `M` the fold of `max` from `⊥` over the row and `S` the sum over the row
    of `exp (ℓ d - M)`, the guarded quotient is the quotient at a valid lane and `0` at a masked one. -/
theorem masked_softmax_guard (valid : ι → Prop) [DecidablePred valid]
    (hv : ∀ j, valid j → ℓ j ≠ ⊥) (hn : ∀ j, ¬ valid j → ℓ j = ⊥) (ht : ∀ j, ℓ j ≠ ⊤) (j : ι) :
    Ideal.div (Ideal.exp (ℓ j - (Finset.univ : Finset ι).fold max ⊥ ℓ))
          (∑ d, Ideal.exp (ℓ d - (Finset.univ : Finset ι).fold max ⊥ ℓ))
        * (if ⊥ < (Finset.univ : Finset ι).fold max ⊥ ℓ then (1 : EReal) else 0)
      = if valid j then
          Ideal.div (Ideal.exp (ℓ j - (Finset.univ : Finset ι).fold max ⊥ ℓ))
            (∑ d, Ideal.exp (ℓ d - (Finset.univ : Finset ι).fold max ⊥ ℓ))
        else 0 :=
  masked_softmax_guard_of_eq ℓ valid hv hn ht _ _ rfl rfl j

end Row

/-! ### A comparison bit as a float, and the conversion of an integer word -/

section Scalars
variable {φ ψ : FTy}

/-- The conversion of a signed integer word to a float is the integer itself, as a real number. -/
@[simp] theorem sitofp_eq {w : Nat} (a : BitVec w) :
    FloatOps.sitofp (F := Ideal) φ a = ((a.toInt : ℝ) : EReal) := rfl

/-- A converted integer is a real number: it is not `-∞`. -/
theorem sitofp_ne_bot {w : Nat} (a : BitVec w) : FloatOps.sitofp (F := Ideal) φ a ≠ ⊥ :=
  EReal.coe_ne_bot _

/-- A converted integer is a real number: it is not `+∞`. -/
theorem sitofp_ne_top {w : Nat} (a : BitVec w) : FloatOps.sitofp (F := Ideal) φ a ≠ ⊤ :=
  EReal.coe_ne_top _

/-- The conversion is injective: two words convert to the same value exactly when they are the same word
    (a word is determined by its signed value, and integers embed in the reals). -/
theorem sitofp_inj {w : Nat} (a b : BitVec w) :
    FloatOps.sitofp (F := Ideal) φ a = FloatOps.sitofp (F := Ideal) φ b ↔ a = b := by
  rw [sitofp_eq, sitofp_eq, EReal.coe_eq_coe_iff, Int.cast_inj, BitVec.toInt_inj]

/-- The same on the real-number form of the conversion. -/
theorem coe_toInt_inj {w : Nat} (a b : BitVec w) :
    (((a.toInt : ℝ) : EReal) = ((b.toInt : ℝ) : EReal)) ↔ a = b := by
  rw [EReal.coe_eq_coe_iff, Int.cast_inj, BitVec.toInt_inj]

/-- The one-bit result of the comparison `x > y`, zero-extended to 32 bits and converted to a float, is `1` where
    `y < x` and `0` elsewhere. -/
@[simp high] theorem guard_eq (x y : Ideal φ) :
    FloatOps.sitofp (F := Ideal) ψ ((FloatOps.cmpf .ogt x y).setWidth 32)
      = if y < x then (1 : EReal) else 0 := by
  rw [sitofp_eq, Ideal.cmpf_def, Ideal.cmp]
  by_cases h : y < x
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-- The same with the conversion already written as a real number. -/
@[simp] theorem guard_eq_toInt (x y : Ideal φ) :
    ((((FloatOps.cmpf .ogt x y).setWidth 32).toInt : ℝ) : EReal) = if y < x then (1 : EReal) else 0 :=
  guard_eq (ψ := .f32) x y

/-- The same with the comparison already written as the order's. -/
@[simp] theorem guard_eq_cmp (x y : EReal) :
    ((((Ideal.cmp .ogt x y).setWidth 32).toInt : ℝ) : EReal) = if y < x then (1 : EReal) else 0 :=
  guard_eq (φ := .f32) (ψ := .f32) x y

/-- On whole vectors: the comparison `m > c` lane by lane, zero-extended to 32 bits and converted to a float, is the
    0/1 indicator of `c i < m i` at each lane. -/
theorem guard_vec_eq {s : Shape} (m c : FVec Ideal s φ) (h : 1 < 32) :
    (sitofp ψ (extui 32 (cmpf .ogt m c) h) : FVec Ideal s ψ) = fun i => if c i < m i then (1 : EReal) else 0 :=
  funext fun i => guard_eq (m i) (c i)

/-- The float equality test of two converted integer words is the integer equality test of the words: the conversion
    is exact and injective. -/
@[simp high] theorem cmpf_oeq_sitofp {w : Nat} (a b : BitVec w) :
    FloatOps.cmpf .oeq (FloatOps.sitofp (F := Ideal) φ a) (FloatOps.sitofp (F := Ideal) φ b) = IntOp.cmpi .eq a b := by
  rw [Ideal.cmpf_def, Ideal.cmp, IntOp.cmpi]
  congr 1
  rw [Bool.beq_eq_decide_eq]
  exact decide_eq_decide.mpr (sitofp_inj a b)

/-- The same with the conversions already written as real numbers. -/
@[simp] theorem cmpf_oeq_coe_toInt {w : Nat} (a b : BitVec w) :
    FloatOps.cmpf (F := Ideal) (φ := φ) .oeq ((a.toInt : ℝ) : EReal) ((b.toInt : ℝ) : EReal) = IntOp.cmpi .eq a b :=
  cmpf_oeq_sitofp a b

/-- The same with the comparison already written as the order's. -/
@[simp] theorem cmp_oeq_coe_toInt {w : Nat} (a b : BitVec w) :
    Ideal.cmp .oeq ((a.toInt : ℝ) : EReal) ((b.toInt : ℝ) : EReal) = IntOp.cmpi .eq a b :=
  cmpf_oeq_sitofp (φ := .f32) a b

/-- On whole vectors: the float equality test of two converted integer vectors is the integer equality test, lane by
    lane. -/
theorem cmpf_oeq_sitofp_vec {s : Shape} {w : Nat} (a b : IVec s w) :
    cmpf .oeq (sitofp φ a : FVec Ideal s φ) (sitofp φ b) = cmpi .eq a b :=
  funext fun i => cmpf_oeq_sitofp (a i) (b i)

end Scalars

end Cert.LibMaskedSoftmax
-- ==== Proof.PointLogits.lean ====
/-
  One grid point, second part: the same-batch mask and the negated clamped distance.

  The kernel tests batch numbers as floats; an int32 converted to a float is its exact value, so that test is the
  reference's integer test. The kernel's squared distance is the product of a packed cluster row
  `(batch, x, y, z, |c|², 1, 0, 0)` with a centroid's column `(0, -2x', -2y', -2z', 1, |e|², 0, 0)`; the reference's is
  `|c|² + |e|² − Σ (2 c_a) e_a`. All the entries are integers, so both are the same real number.
-/
import proofs.«143742_j69166153335044_2_alg».proof.Proof.Gen.KernelIdeal.Skeleton
import proofs.«143742_j69166153335044_2_alg».proof.Proof.Gen.ReferenceIdeal.Read
import proofs.«143742_j69166153335044_2_alg».proof.Proof.HostRead
import proofs.«143742_j69166153335044_2_alg».proof.Proof.Consts
import proofs.«143742_j69166153335044_2_alg».proof.Proof.LibMaskedSoftmax

noncomputable section

namespace Cert.KernelIdeal.Point

open Cert.KernelIdeal Cert.KernelIdeal.Gen Cert.KernelIdeal.Staged Idealize.ShloMosaic Idealize.ShloMosaic.ValueIdx
open Cert.LibRowMax Cert.LibColumn Cert.LibLogSoftmax Cert.LibMaskedSoftmax Cert.ReferenceIdeal.Read

variable (x0 : S100000x4.Idx → BitVec 32) (x1 : S256x4.Idx → BitVec 32)
variable (bp : S4000x8.Idx → Ideal .f32) (bcb : S1x256.Idx → Ideal .f32) (bm : S8x256.Idx → Ideal .f32)

/-! ## The mask -/

/-- At `(r, j)` the kernel's mask compares the block's batch entry of row `r` with the batch row's entry `j`. -/
theorem pay5_apply (r : Fin 4000) (j : Fin 256) :
    k0_pay5 (F := Ideal) bp bcb (ix2 r j) = FloatOps.cmpf .oeq (bp (ix2 r (0 : Fin 8))) (bcb (ix2 (0 : Fin 1) j)) := by
  show FloatOps.cmpf .oeq
      (broadcastTo S4000x256 (extractStridedSlice S4000x1 ![0, 0] (shapeCast S4000x8 bp shapeCasts_S4000x8_S4000x8)
        slices_S4000x8_o0_0_S4000x1) broadcasts_S4000x1_S4000x256 (ix2 r j))
      (broadcastTo S4000x256 (shapeCast S1x256 bcb shapeCasts_S1x256_S1x256) broadcasts_S1x256_S4000x256 (ix2 r j)) = _
  rw [broadcastTo_a1_ab_apply _ broadcasts_S4000x1_S4000x256 r j, broadcastTo_1b_ab_apply _ broadcasts_S1x256_S4000x256 r j,
    shapeCast_self, shapeCast_self, slice2_axis1_apply 0 bp slices_S4000x8_o0_0_S4000x1 r (0 : Fin 1) (0 : Fin 8) rfl]

/-- The float test of two exactly converted batch numbers is the reference's integer test. -/
theorem mask_eq (n : Fin 100000) (r : Fin 4000) (j : Fin 256) (hp : bp (ix2 r (0 : Fin 8)) = toR (x0 (ix2 n (0 : Fin 4))))
    (hc : bcb (ix2 (0 : Fin 1) j) = toR (x1 (ix2 j (0 : Fin 4)))) :
    k0_pay5 (F := Ideal) bp bcb (ix2 r j) = val_main_v23 (F := Ideal) x0 x1 (ix2 n j) := by
  rw [pay5_apply, hp, hc, val_main_v23_apply, val_main_v21_apply, val_main_v17_apply, val_main_v16_apply, val_main_v15_apply,
    val_main_v22_apply, val_main_v20_apply, val_main_v19_apply, val_main_v18_apply, cmpf_oeq_coe_toInt]
  exact congrArg₂ (IntOp.cmpi .eq)
    (congrArg x0 (funext fun a => Fin.ext (by
      match a with
      | ⟨0, _⟩ => (first | rfl | exact (Nat.div_one _).symm)
      | ⟨1, _⟩ => rfl)))
    (congrArg x1 (funext fun a => Fin.ext (by
      match a with
      | ⟨0, _⟩ => (first | rfl | exact (Nat.div_one _).symm)
      | ⟨1, _⟩ => rfl)))

/-! ## The squared distance, a real number -/

/-- Cluster `n`'s spatial coordinate `a`. -/
def cR (n : Fin 100000) (a : Fin 3) : ℝ := ((x0 (ix2 n (⟨1 + a.val, by omega⟩ : Fin 4))).toInt : ℝ)
/-- Centroid `j`'s spatial coordinate `a`. -/
def eR (j : Fin 256) (a : Fin 3) : ℝ := ((x1 (ix2 j (⟨1 + a.val, by omega⟩ : Fin 4))).toInt : ℝ)

/-- Cluster `n`'s batch number. -/
def bR (n : Fin 100000) : ℝ := ((x0 (ix2 n (0 : Fin 4))).toInt : ℝ)

theorem cluXyz_cR (n : Fin 100000) (a : Fin 3) : cluXyz (F := Ideal) x0 (ix2 n a) = ((cR x0 n a : ℝ) : EReal) :=
  cluXyz_apply x0 n a
theorem cenXyz_eR (j : Fin 256) (a : Fin 3) : cenXyz (F := Ideal) x1 (ix2 j a) = ((eR x1 j a : ℝ) : EReal) :=
  cenXyz_apply x1 j a
theorem cluBatchCol_bR (n : Fin 100000) : cluBatchCol (F := Ideal) x0 (ix2 n (0 : Fin 1)) = ((bR x0 n : ℝ) : EReal) :=
  cluBatchCol_apply x0 n
theorem sitofp_cR (n : Fin 100000) (a : Fin 3) :
    FloatOps.sitofp (F := Ideal) .f32 (x0 (ix2 n (⟨1 + a.val, by omega⟩ : Fin 4))) = ((cR x0 n a : ℝ) : EReal) := rfl
theorem sitofp_eR (j : Fin 256) (a : Fin 3) :
    FloatOps.sitofp (F := Ideal) .f32 (x1 (ix2 j (⟨1 + a.val, by omega⟩ : Fin 4))) = ((eR x1 j a : ℝ) : EReal) := rfl

/-- The squared distance between cluster `n` and centroid `j`, expanded. -/
def dsq (n : Fin 100000) (j : Fin 256) : ℝ :=
  (∑ a : Fin 3, cR x0 n a * cR x0 n a) + (∑ a : Fin 3, eR x1 j a * eR x1 j a) - ∑ a : Fin 3, (2 * cR x0 n a) * eR x1 j a

/-- The packed row of cluster `n` times the column of centroid `j` is that squared distance. -/
theorem packed_dist (n : Fin 100000) (j : Fin 256) :
    ∑ e : Fin 8, packed (F := Ideal) x0 (ix2 n e) * distMat (F := Ideal) x1 (ix2 e j) = ((dsq x0 x1 n j : ℝ) : EReal) := by
  rw [Fin.sum_univ_eight, packed_col0, packed_col1, packed_col2, packed_col3, packed_col4, packed_col5, packed_col6,
    packed_col7, distMat_row0, distMat_row1, distMat_row2, distMat_row3, distMat_row4, distMat_row5, distMat_row6,
    distMat_row7, cluBatchCol_bR, cluSqCol_apply, cenSqRow_apply,
    cenCoordRow_apply x1 0 slices_S256x3_S256x1_0_0 0 rfl j, cenCoordRow_apply x1 1 slices_S256x3_S256x1_0_1 1 rfl j,
    cenCoordRow_apply x1 2 slices_S256x3_S256x1_0_2 2 rfl j]
  simp only [constRow_apply, constCol_apply, cenXyz_eR, cluXyz_cR, Fin.sum_univ_three, Consts.ofBits_one,
    Consts.ofBits_neg_two, Ideal.ofBits_zero_f32, dsq]
  norm_cast
  push_cast
  ring

/-- The reference's squared distance is the same real number. -/
theorem ref_dist (n : Fin 100000) (j : Fin 256) :
    val_main_v41 (F := Ideal) x0 x1 (ix2 n j) = ((dsq x0 x1 n j : ℝ) : EReal) := by
  have e1 : ∀ a : Fin 3, idx_main_v24 (idx_main_v29 (idx_main_v30 (idx_main_v34 (ix2 n j))) a) = ix2 n (⟨1 + a.val, by omega⟩ : Fin 4) :=
    fun a => funext fun b => Fin.ext (by match b with | ⟨0, _⟩ => rfl | ⟨1, _⟩ => rfl)
  have e2 : ∀ a : Fin 3, idx_main_v26 (idx_main_v32 (idx_main_v33 (idx_main_v35 (ix2 n j))) a) = ix2 j (⟨1 + a.val, by omega⟩ : Fin 4) :=
    fun a => funext fun b => Fin.ext (by match b with | ⟨0, _⟩ => rfl | ⟨1, _⟩ => rfl)
  have e3 : ∀ a : Fin 3, idx_main_v24 (lidx_main_v40 (ix2 n j) a) = ix2 n (⟨1 + a.val, by omega⟩ : Fin 4) :=
    fun a => funext fun b => Fin.ext (by match b with | ⟨0, _⟩ => rfl | ⟨1, _⟩ => rfl)
  have e4 : ∀ a : Fin 3, idx_main_v26 (idx_main_v39 (ridx_main_v40 (ix2 n j) a)) = ix2 j (⟨1 + a.val, by omega⟩ : Fin 4) :=
    fun a => funext fun b => Fin.ext (by match b with | ⟨0, _⟩ => rfl | ⟨1, _⟩ => rfl)
  rw [val_main_v41_apply, val_main_v36_apply, val_main_v34_apply, val_main_v30_apply, val_main_v29_apply,
    val_main_v35_apply, val_main_v33_apply, val_main_v32_apply, val_main_v40_apply]
  simp only [val_main_v28_apply, val_main_v31_apply, val_main_v38_apply, val_main_v37_apply, val_main_v39_apply,
    val_main_v25_apply, val_main_v27_apply, val_main_v24_apply, val_main_v26_apply, val_main_cst_0_apply,
    val_main_cst_1_apply, val_main_cst_2_apply, e1, e2, e3, e4, sitofp_cR, sitofp_eR, Ideal.ofBits_def, Ideal.addf_def,
    Ideal.subf_def, Ideal.mulf_def, Consts.ofBits_two, Ideal.ofBits_zero_f32, Fin.sum_univ_three, dsq, zero_add]
  norm_cast

end Cert.KernelIdeal.Point

end
-- ==== Proof.LibGuardedSoftmax.lean ====
/-
  A row-wise softmax of an `[a, b]` matrix along its last axis, multiplied by a 0/1 guard on the row maximum, read at
  an entry given by its coordinates, on the extended reals, for any extents, in the vector unit's spelling:

      exp (x_{p q} − m_p) / Σ_d exp (x_{p d} − m_p) · [c < m_p],     m_p the fold of `max` over row `p` from minus infinity.

  The row maximum and the row sum are one-axis reductions kept as a column (`[a] → [a, 1]`) and broadcast across the
  lanes; the guard compares the column of maxima with a splat constant `c`, widens the bit and converts it to a float.
-/
import proofs.«143742_j69166153335044_2_alg».proof.Proof.LibLogSoftmax
import proofs.«143742_j69166153335044_2_alg».proof.Proof.LibMaskedSoftmax

noncomputable section

namespace Cert.LibGuardedSoftmax

open Idealize.ShloMosaic Idealize.ShloMosaic.ValueIdx Cert.LibColumn Cert.LibLastAxis Cert.LibLogSoftmax Cert.LibMaskedSoftmax

variable {a b : ℕ}

/-- The vector unit's guarded softmax along the last axis, at `(p, q)`. -/
theorem vector_apply (x : FVec Ideal ⟨2, ![a, b]⟩ .f32) (c : Ideal .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (h32 : 1 < 32) (p : Fin a) (q : Fin b) :
    mulf
      (divf
        (exp (subf x (broadcastTo ⟨2, ![a, b]⟩ (shapeCast ⟨2, ![a, 1]⟩
          (multiReduction .maximumf [1] ⟨1, ![a]⟩ x 0xFF800000#32 hr hφ hmax) hc) hb)))
        (broadcastTo ⟨2, ![a, b]⟩ (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc) hb))
      (broadcastTo ⟨2, ![a, b]⟩
        (sitofp .f32 (extui 32 (cmpf .ogt (shapeCast ⟨2, ![a, 1]⟩
          (multiReduction .maximumf [1] ⟨1, ![a]⟩ x 0xFF800000#32 hr hφ hmax) hc) (broadcast ⟨2, ![a, 1]⟩ c)) h32))
        hb) (ix2 p q)
    = Ideal.div
        (Ideal.exp (x (ix2 p q) - (Finset.univ : Finset (Fin b)).fold max (Ideal.ofBits .f32 0xFF800000#32) fun d => x (ix2 p d)))
        (∑ d : Fin b, Ideal.exp (x (ix2 p d)
          - (Finset.univ : Finset (Fin b)).fold max (Ideal.ofBits .f32 0xFF800000#32) fun d => x (ix2 p d)))
      * (if c < (Finset.univ : Finset (Fin b)).fold max (Ideal.ofBits .f32 0xFF800000#32) fun d => x (ix2 p d)
          then (1 : EReal) else 0) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc) hb (ix2 p q)
      = ∑ d : Fin b, Ideal.exp (x (ix2 p d)
          - (Finset.univ : Finset (Fin b)).fold max (Ideal.ofBits .f32 0xFF800000#32) fun d => x (ix2 p d)) := by
    refine (keep_vector_apply _ hc hb p q).trans ((sum_last_apply _ hr hφ hadd p).trans (Finset.sum_congr rfl fun d _ => ?_))
    show Ideal.exp (x (ix2 p d) - _) = _
    rw [e1 d]
  have e3 : broadcastTo ⟨2, ![a, b]⟩
        (sitofp (F := Ideal) .f32 (extui 32 (cmpf .ogt (shapeCast ⟨2, ![a, 1]⟩
          (multiReduction .maximumf [1] ⟨1, ![a]⟩ x 0xFF800000#32 hr hφ hmax) hc) (broadcast ⟨2, ![a, 1]⟩ c)) h32))
        hb (ix2 p q)
      = if c < (Finset.univ : Finset (Fin b)).fold max (Ideal.ofBits .f32 0xFF800000#32) fun d => x (ix2 p d)
          then (1 : EReal) else 0 := by
    refine (broadcastTo_a1_ab_apply _ hb p q).trans ?_
    show FloatOps.sitofp (F := Ideal) .f32
        ((FloatOps.cmpf .ogt (shapeCast ⟨2, ![a, 1]⟩ _ hc (ix2 p (0 : Fin 1))) c).setWidth 32) = _
    rw [guard_eq, shapeCast_a_a1_apply _ hc p 0, max_last_apply x 0xFF800000#32 hr hφ hmax p]
  show Ideal.div (Ideal.exp (x (ix2 p q) - _)) _ * _ = _
  rw [e1 q, e2, e3]

end Cert.LibGuardedSoftmax

end
-- ==== Proof.LibClampedDistance.lean ====
/-
  The negated clamped distance is a real number.

  From a real squared distance `d` and a real clamp `c` a program forms `-max (√(max d 0)) c` on the
  extended reals. Each step stays among the real numbers: the maximum of two real numbers is a real
  number, the square root of a real number that is not negative is a real number, and so is the negation
  of one. So the result is neither `-∞` nor `+∞`.
-/
import Idealize.ShloMosaic.PureOps.Ideal
import Mathlib.Data.EReal.Operations

open Idealize.ShloMosaic

namespace Cert.LibClampedDistance

/-- The embedding of the real numbers in the extended reals carries `max` to `max` (it is monotone). -/
theorem coe_max (a b : ℝ) : ((max a b : ℝ) : EReal) = max (a : EReal) (b : EReal) :=
  EReal.coe_strictMono.monotone.map_max

/-- The square root of a real number that is not negative, taken on the extended reals, is the real square
    root. -/
theorem sqrt_coe_of_nonneg {r : ℝ} (hr : 0 ≤ r) : Ideal.sqrt (r : EReal) = ((Real.sqrt r : ℝ) : EReal) := by
  rw [Ideal.sqrt_coe, if_neg (not_lt.mpr hr)]

/-- With `d` a real number, `z` zero and `c` a real number, `-max (√(max d z)) c` is a real number: it is
    `-max (√(max d 0)) x` computed in the reals, where `c` is the real number `x`; `max d 0` is not negative,
    so its square root is the real one. -/
theorem neg_clamp_real (d : ℝ) (z c : EReal) (hz : z = 0) (hc : ∃ x : ℝ, c = (x : EReal)) :
    ∃ y : ℝ, -(max (Ideal.sqrt (max (d : EReal) z)) c) = (y : EReal) := by
  obtain ⟨x, rfl⟩ := hc
  refine ⟨-(max (Real.sqrt (max d 0)) x), ?_⟩
  rw [hz, ← EReal.coe_zero, ← coe_max, sqrt_coe_of_nonneg (le_max_right d 0), ← coe_max, EReal.coe_neg]

/-- So it is not `-∞`. -/
theorem neg_clamp_ne_bot (d : ℝ) (z c : EReal) (hz : z = 0) (hc : ∃ x : ℝ, c = (x : EReal)) :
    -(max (Ideal.sqrt (max (d : EReal) z)) c) ≠ ⊥ := by
  obtain ⟨y, hy⟩ := neg_clamp_real d z c hz hc
  rw [hy]; exact EReal.coe_ne_bot y

/-- And it is not `+∞`. -/
theorem neg_clamp_ne_top (d : ℝ) (z c : EReal) (hz : z = 0) (hc : ∃ x : ℝ, c = (x : EReal)) :
    -(max (Ideal.sqrt (max (d : EReal) z)) c) ≠ ⊤ := by
  obtain ⟨y, hy⟩ := neg_clamp_real d z c hz hc
  rw [hy]; exact EReal.coe_ne_top y

end Cert.LibClampedDistance
-- ==== Proof.PointRef.lean ====
/-
  One grid point, last part: the logits, the reference's softmax read at an entry, and the whole stored value.

  The kernel's logit at `(r, d)` is the reference's at `(n, d)` (the mask and the distance agree, and the kernel's
  mask value is named minus infinity). So both sides take the softmax of one row `ℓ`; at a valid lane the logit is a
  real number, at a masked lane it is `⊥`, and the kernel's guard times the quotient is the reference's selection of
  zero at masked lanes. The similarity factor is the same contraction over the 64 projected coordinates on both sides.
-/
import proofs.«143742_j69166153335044_2_alg».proof.Proof.PointNorm
import proofs.«143742_j69166153335044_2_alg».proof.Proof.PointLogits
import proofs.«143742_j69166153335044_2_alg».proof.Proof.LibGuardedSoftmax
import proofs.«143742_j69166153335044_2_alg».proof.Proof.LibLastAxis
import proofs.«143742_j69166153335044_2_alg».proof.Proof.LibClampedDistance

noncomputable section

namespace Cert.KernelIdeal.Point

open Cert.KernelIdeal Cert.KernelIdeal.Gen Cert.KernelIdeal.Staged Idealize.ShloMosaic Idealize.ShloMosaic.ValueIdx
open Cert.LibRowMax Cert.LibColumn Cert.LibLastAxis Cert.LibLogSoftmax Cert.LibMaskedSoftmax Cert.LibClampedDistance
open Cert.ReferenceIdeal.Read

variable (x0 : S100000x4.Idx → BitVec 32) (x1 : S256x4.Idx → BitVec 32)

/-! ## The reference's negated distance and logits -/

/-- The reference's negated clamped distance, from the real squared distance. -/
theorem ref_negdist (n : Fin 100000) (j : Fin 256) :
    val_main_v47 (F := Ideal) x0 x1 (ix2 n j)
      = -(max (Ideal.sqrt (max ((dsq x0 x1 n j : ℝ) : EReal) (Ideal.ofBits .f32 0x00000000#32))) (Ideal.ofBits .f32 0x3DCCCCCD#32)) := by
  rw [val_main_v47_apply, val_main_v46_apply, val_main_v44_apply, val_main_v43_apply, ref_dist, val_main_v42_apply,
    val_main_v45_apply, val_main_cst_3_apply, val_main_cst_4_apply]
  rfl

/-- The reference's logit row of cluster `n`. -/
def refRow (n : Fin 100000) : Fin 256 → EReal := fun d => val_main_v48 (F := Ideal) x0 x1 (ix2 n d)

/-- A lane is valid when the batch numbers agree. -/
def validAt (n : Fin 100000) (j : Fin 256) : Prop := val_main_v23 (F := Ideal) x0 x1 (ix2 n j) = 1#1

instance (n : Fin 100000) : DecidablePred (validAt x0 x1 n) := fun _ => by unfold validAt; infer_instance

theorem refRow_valid (n : Fin 100000) (j : Fin 256) (h : validAt x0 x1 n j) :
    refRow x0 x1 n j = val_main_v47 (F := Ideal) x0 x1 (ix2 n j) := by
  unfold refRow
  rw [val_main_v48_apply, (h : val_main_v23 (F := Ideal) x0 x1 (ix2 n j) = 1#1), select_one]

theorem refRow_masked (n : Fin 100000) (j : Fin 256) (h : ¬ validAt x0 x1 n j) : refRow x0 x1 n j = ⊥ := by
  unfold refRow
  rw [val_main_v48_apply, eq_zero_of_ne_one (h : ¬ val_main_v23 (F := Ideal) x0 x1 (ix2 n j) = 1#1), select_zero,
    val_main_call1_v1_apply, val_main_call1_v0_apply, val_main_cst_5_apply]
  exact Consts.ofBits_negInf

theorem refRow_ne_bot (n : Fin 100000) (j : Fin 256) (h : validAt x0 x1 n j) : refRow x0 x1 n j ≠ ⊥ := by
  rw [refRow_valid x0 x1 n j h, ref_negdist]
  exact neg_clamp_ne_bot _ _ _ Ideal.ofBits_zero_f32 Consts.ofBits_tenth

theorem refRow_ne_top (n : Fin 100000) (j : Fin 256) : refRow x0 x1 n j ≠ ⊤ := by
  by_cases h : validAt x0 x1 n j
  · rw [refRow_valid x0 x1 n j h, ref_negdist]
    exact neg_clamp_ne_top _ _ _ Ideal.ofBits_zero_f32 Consts.ofBits_tenth
  · rw [refRow_masked x0 x1 n j h]
    exact bot_ne_top

/-! ## The reference's softmax at an entry -/

/-- The reference's row maximum, broadcast back over the lanes, is the fold of `max` over the row from `⊥`. -/
theorem ref_rowMax (n : Fin 100000) (d : Fin 256) :
    val_main_v53 (F := Ideal) x0 x1 (ix2 n d) = (Finset.univ : Finset (Fin 256)).fold max ⊥ (refRow x0 x1 n) := by
  rw [val_main_v53_apply, val_main_v52_apply, val_main_v51_apply, val_main_v50_apply, val_main_cst_7_apply]
  have hi : idx_main_v52 (idx_main_v53 (ix2 n d)) = ix1 n := funext fun a => Fin.ext (by match a with | ⟨0, _⟩ => rfl)
  rw [hi]
  unfold val_main_v49
  rw [Host.reduce_eq_fold_single FloatOps.maximumf _ _ Cert.ReferenceIdeal.Gen.reducesTo_S100000x256_S100000_d1 (by decide)
    Cert.ReferenceIdeal.Gen.h_S_ (ix1 n)]
  show max (Ideal.ofBits .f32 0xFF800000#32) ((Finset.univ : Finset (Fin 256)).fold max (Ideal.ofBits .f32 0xFF800000#32) _) = _
  rw [Consts.ofBits_negInf, bot_sup_eq]
  refine congrArg (Finset.fold max ⊥ · Finset.univ) (funext fun e => ?_)
  exact congrArg (val_main_v48 (F := Ideal) x0 x1) (funext fun a => Fin.ext (by match a with | ⟨0, _⟩ => rfl | ⟨1, _⟩ => rfl))

/-- The reference's exponentials. -/
theorem ref_exp (n : Fin 100000) (d : Fin 256) :
    val_main_v55 (F := Ideal) x0 x1 (ix2 n d)
      = Ideal.exp (refRow x0 x1 n d - (Finset.univ : Finset (Fin 256)).fold max ⊥ (refRow x0 x1 n)) := by
  rw [val_main_v55_apply, val_main_v54_apply, ref_rowMax]
  rfl

/-- The reference's attention weight at `(n, j)`. -/
theorem ref_attn (n : Fin 100000) (j : Fin 256) :
    val_main_v60 (F := Ideal) x0 x1 (ix2 n j)
      = if validAt x0 x1 n j then
          Ideal.div (Ideal.exp (refRow x0 x1 n j - (Finset.univ : Finset (Fin 256)).fold max ⊥ (refRow x0 x1 n)))
            (∑ d : Fin 256, Ideal.exp (refRow x0 x1 n d - (Finset.univ : Finset (Fin 256)).fold max ⊥ (refRow x0 x1 n)))
        else 0 := by
  rw [val_main_v60_apply]
  by_cases h : validAt x0 x1 n j
  · rw [if_pos h, (h : val_main_v23 (F := Ideal) x0 x1 (ix2 n j) = 1#1), select_one, val_main_v59_apply, ref_exp,
      val_main_v58_apply, val_main_v57_apply, val_main_v56_apply, val_main_cst_8_apply]
    show Ideal.div _ (Ideal.ofBits .f32 0x00000000#32 + _) = _
    rw [Ideal.ofBits_zero_f32, zero_add]
    refine congrArg (Ideal.div _) (Finset.sum_congr rfl fun d _ => ?_)
    have hi : idx_main_v56 (idx_main_v57 (idx_main_v58 (ix2 n j))) d = ix2 n d :=
      funext fun a => Fin.ext (by match a with | ⟨0, _⟩ => rfl | ⟨1, _⟩ => rfl)
    rw [hi, ref_exp]
  · rw [if_neg h, eq_zero_of_ne_one (h : ¬ val_main_v23 (F := Ideal) x0 x1 (ix2 n j) = 1#1), select_zero,
      val_main_call2_v1_apply, val_main_call2_v0_apply, val_main_cst_9_apply]
    exact Ideal.ofBits_zero_f32

end Cert.KernelIdeal.Point

end
-- ==== Proof.PointValue.lean ====
/-
  One grid point, whole: what the body stores at `(r, j)` of the block of point `t` is the reference's result at
  cluster row `4000 t + r` and centroid `j`.

  The stored value is the similarity `Σ_d clu (r, d) · cen (j, d)` times the guarded softmax weight of lane `j` in row
  `r`. The similarity's factors are the reference's (the normalized projection of the cluster row, the centroid
  projections transposed); the weights agree by the masked-softmax law, because both rows of logits are one row.
-/
import proofs.«143742_j69166153335044_2_alg».proof.Proof.PointRef

noncomputable section

namespace Cert.KernelIdeal.Point

open Cert.KernelIdeal Cert.KernelIdeal.Gen Cert.KernelIdeal.Staged Idealize.ShloMosaic Idealize.ShloMosaic.ValueIdx
open Cert.LibRowMax Cert.LibColumn Cert.LibLastAxis Cert.LibLogSoftmax Cert.LibMaskedSoftmax Cert.LibClampedDistance
open Cert.ReferenceIdeal.Read

/-- The cluster row that local row `r` of grid point `t`'s block is. -/
def rowOf (t : Fin 25) (r : Fin 4000) : Fin 100000 := ⟨4000 * t.val + r.val, by omega⟩

/-- The two mask constants of the kernel are named minus infinity. -/
theorem neg_big : Named.named (F := Ideal) κ "neg_big" (φ := .f32) 0xFF333332#32 = (⊥ : EReal) :=
  IdealRules.named_const.ideal_named_scalar _ _ _ _ rfl
theorem neg_big_2 : Named.named (F := Ideal) κ "neg_big_2" (φ := .f32) 0xFEB33332#32 = (⊥ : EReal) :=
  IdealRules.named_const.ideal_named_scalar _ _ _ _ rfl

/-- The maximum of a row of a block from minus infinity. -/
def rowMax (L : S4000x256.Idx → Ideal .f32) (r : Fin 4000) : EReal :=
  (Finset.univ : Finset (Fin 256)).fold max (Ideal.ofBits .f32 0xFF800000#32) fun d => L (ix2 r d)

/-- The vector unit's guarded softmax of the block of logits `L`, with guard constant `c`, as the body spells it. -/
def vecSoftmax (L : S4000x256.Idx → Ideal .f32) (c : Ideal .f32) : S4000x256.Idx → Ideal .f32 :=
  mulf
    (divf
      (exp (subf L (broadcastTo S4000x256 (shapeCast S4000x1
        (multiReduction .maximumf [1] S4000 L 0xFF800000#32 reduces_S4000x256_S4000 (.inl rfl) rfl) shapeCasts_S4000_S4000x1)
        broadcasts_S4000x1_S4000x256)))
      (broadcastTo S4000x256 (shapeCast S4000x1
        (multiReduction .add [1] S4000
          (exp (subf L (broadcastTo S4000x256 (shapeCast S4000x1
            (multiReduction .maximumf [1] S4000 L 0xFF800000#32 reduces_S4000x256_S4000 (.inl rfl) rfl) shapeCasts_S4000_S4000x1)
            broadcasts_S4000x1_S4000x256)))
          0x00000000#32 reduces_S4000x256_S4000 (.inl rfl) rfl) shapeCasts_S4000_S4000x1) broadcasts_S4000x1_S4000x256))
    (broadcastTo S4000x256
      (sitofp .f32 (extui 32 (cmpf .ogt (shapeCast S4000x1
        (multiReduction .maximumf [1] S4000 L 0xFF800000#32 reduces_S4000x256_S4000 (.inl rfl) rfl) shapeCasts_S4000_S4000x1)
        (broadcast S4000x1 c)) natLt_1_32))
      broadcasts_S4000x1_S4000x256)

/-- The vector unit's guarded softmax at `(r, j)`. -/
theorem vecSoftmax_apply (L : S4000x256.Idx → Ideal .f32) (c : Ideal .f32) (r : Fin 4000) (j : Fin 256) :
    vecSoftmax L c (ix2 r j)
      = Ideal.div (Ideal.exp (L (ix2 r j) - rowMax L r)) (∑ d : Fin 256, Ideal.exp (L (ix2 r d) - rowMax L r))
          * (if c < rowMax L r then (1 : EReal) else 0) :=
  Cert.LibGuardedSoftmax.vector_apply (a := 4000) (b := 256) L c reduces_S4000x256_S4000 (.inl rfl) rfl rfl
    shapeCasts_S4000_S4000x1 broadcasts_S4000x1_S4000x256 natLt_1_32 r j

section
variable (x0 : S100000x4.Idx → BitVec 32) (x1 : S256x4.Idx → BitVec 32)
variable (bp : S4000x8.Idx → Ideal .f32) (bm : S8x256.Idx → Ideal .f32)

/-- The kernel's negated clamped distance at `(r, j)`: zero minus the clamped root of the packed product. -/
theorem pay6_apply (r : Fin 4000) (j : Fin 256) :
    k0_pay6 (F := Ideal) bp bm (ix2 r j)
      = Ideal.ofBits .f32 0x00000000#32
        - max (Ideal.sqrt (max (∑ e : Fin 8, bp (ix2 r e) * bm (ix2 e j)) (Ideal.ofBits .f32 0x00000000#32)))
            (Ideal.ofBits .f32 0x3DCCCCCD#32) := by
  show Ideal.ofBits .f32 0x00000000#32
      - max (Ideal.sqrt (max (FloatOps.matmul dot_S4000x8_S8x256_S4000x256_1_0_0_1_n_n (some .fp32)
          (shapeCast S4000x8 bp shapeCasts_S4000x8_S4000x8) (shapeCast S8x256 bm shapeCasts_S8x256_S8x256)
          (constant S4000x256 .f32 0x00000000#32) (ix2 r j)) (Ideal.ofBits .f32 0x00000000#32)))
        (Ideal.ofBits .f32 0x3DCCCCCD#32) = _
  rw [shapeCast_self, shapeCast_self]
  exact congrArg (fun z => Ideal.ofBits .f32 0x00000000#32
      - max (Ideal.sqrt (max z (Ideal.ofBits .f32 0x00000000#32))) (Ideal.ofBits .f32 0x3DCCCCCD#32))
    (matmul_plain_apply (a := 4000) (k := 8) (b := 256) dot_S4000x8_S8x256_S4000x256_1_0_0_1_n_n.wf (some .fp32) bp bm r j)

/-- The kernel's negated distance is the reference's. -/
theorem negdist_eq (n : Fin 100000) (r : Fin 4000) (j : Fin 256)
    (hp : ∀ e : Fin 8, bp (ix2 r e) = packed (F := Ideal) x0 (ix2 n e)) (hm : bm = distMat (F := Ideal) x1) :
    k0_pay6 (F := Ideal) bp bm (ix2 r j) = val_main_v47 (F := Ideal) x0 x1 (ix2 n j) := by
  subst hm
  rw [pay6_apply, ref_negdist, Ideal.ofBits_zero_f32, zero_sub]
  simp only [hp]
  rw [packed_dist]

end

/-- The narrowed, re-cast centroid window is the window. -/
theorem pay3_eq (v6 : S64x256.Idx → Ideal .bf16) : k0_pay3 (F := Ideal) v6 = v6 := shapeCast_self _ _

/-- The stored value at `(r, j)` over any operands: the similarity contraction times the guarded softmax weight. -/
theorem pay1_apply (v7 : S64x256.Idx → Ideal .bf16) (v24 : S4000x64.Idx → Ideal .f32) (v28 : IVec S4000x256 1)
    (v36 : S4000x256.Idx → Ideal .f32) (cst : Ideal .f32) (r : Fin 4000) (j : Fin 256) :
    k0_pay1 (F := Ideal) v7 v24 v28 v36 cst (ix2 r j)
      = (∑ d : Fin 64, v24 (ix2 r d) * v7 (ix2 d j))
        * vecSoftmax (select v28 v36 (broadcast S4000x256 cst))
            (Named.named (F := Ideal) κ "neg_big_2" (φ := .f32) 0xFEB33332#32) (ix2 r j) := by
  show FloatOps.matmul dot_S4000x64_S64x256_S4000x256_1_0_0_1_n_n none (truncf .bf16 v24 bitsLt_bf16_f32) v7
        (constant S4000x256 .f32 0x00000000#32) (ix2 r j) * vecSoftmax _ _ (ix2 r j) = _
  exact congrArg (· * vecSoftmax (select v28 v36 (broadcast S4000x256 cst))
      (Named.named (F := Ideal) κ "neg_big_2" (φ := .f32) 0xFEB33332#32) (ix2 r j))
    (matmul_plain_apply (a := 4000) (k := 64) (b := 256) dot_S4000x64_S64x256_S4000x256_1_0_0_1_n_n.wf none
      (truncf .bf16 v24 bitsLt_bf16_f32) v7 r j)

set_option maxHeartbeats 1000000 in
/-- The body's stored value at `(r, j)`, from blocks that are the windows' arrays read at point `t`, is the reference's
    result at `(4000 t + r, j)`. -/
theorem point_value (x0 : S100000x4.Idx → BitVec 32) (x1 : S256x4.Idx → BitVec 32) (x2 : S100000x128.Idx → Ideal .f32)
    (x3 : S256x128.Idx → Ideal .f32) (x4 : S256x1.Idx → Ideal .f32) (x5 : S128x64.Idx → Ideal .f32) (x6 : S64.Idx → Ideal .f32)
    (b0 : S4000x128.Idx → Ideal .f32) (b1 : S4000x8.Idx → Ideal .f32) (b2 : S128x64.Idx → Ideal .f32)
    (b3 : S1x64.Idx → Ideal .f32) (b4 : S64x256.Idx → Ideal .bf16) (b5 : S1x256.Idx → Ideal .f32) (b6 : S8x256.Idx → Ideal .f32)
    (t : Fin 25)
    (h0 : ∀ (r : Fin 4000) (k : Fin 128), b0 (ix2 r k) = x2 (ix2 (rowOf t r) k))
    (h1 : ∀ (r : Fin 4000) (e : Fin 8), b1 (ix2 r e) = packed (F := Ideal) x0 (ix2 (rowOf t r) e))
    (h2 : b2 = x5) (h3 : b3 = biasRow (F := Ideal) x6) (h4 : b4 = cenT (F := Ideal) x3 x4 x5 x6)
    (h5 : b5 = cenBatch (F := Ideal) x1) (h6 : b6 = distMat (F := Ideal) x1) (r : Fin 4000) (j : Fin 256) :
    k0_pay1 (F := Ideal) (k0_pay3 (F := Ideal) b4) (k0_pay4 (F := Ideal) b0 b2 b3) (k0_pay5 (F := Ideal) b1 b5)
        (k0_pay6 (F := Ideal) b1 b6)
        (Named.named κ "neg_big" 0xFF333332#32) (ix2 r j)
      = Cert.ReferenceIdeal.Read.val_main_v63 (F := Ideal) x0 x1 x2 x3 x4 x5 x6 (ix2 (rowOf t r) j) := by
  -- the row of logits the kernel takes the softmax of is the reference's row
  have hL : ∀ d : Fin 256,
      select (k0_pay5 (F := Ideal) b1 b5) (k0_pay6 (F := Ideal) b1 b6)
          (broadcast S4000x256 (Named.named (F := Ideal) κ "neg_big" (φ := .f32) 0xFF333332#32)) (ix2 r d)
        = refRow x0 x1 (rowOf t r) d := fun d => by
    show Scalar.select _ _ _ = Scalar.select _ _ _
    rw [mask_eq x0 x1 b1 b5 (rowOf t r) r d ((h1 r 0).trans ((packed_col0 x0 _).trans (cluBatchCol_apply x0 _)))
        (h5 ▸ cenBatch_apply x1 d), negdist_eq x0 x1 b1 b6 (rowOf t r) r d (h1 r) h6, val_main_call1_v1_apply,
      val_main_call1_v0_apply, val_main_cst_5_apply]
    show Scalar.select _ _ (Named.named (F := Ideal) κ "neg_big" (φ := .f32) 0xFF333332#32)
      = Scalar.select _ _ (Ideal.ofBits .f32 0xFF800000#32)
    rw [neg_big, Consts.ofBits_negInf]
  have hM : rowMax (select (k0_pay5 (F := Ideal) b1 b5) (k0_pay6 (F := Ideal) b1 b6)
        (broadcast S4000x256 (Named.named (F := Ideal) κ "neg_big" (φ := .f32) 0xFF333332#32))) r
      = (Finset.univ : Finset (Fin 256)).fold max ⊥ (refRow x0 x1 (rowOf t r)) := by
    unfold rowMax
    rw [Consts.ofBits_negInf]
    exact congrArg (Finset.fold max ⊥ · Finset.univ) (funext hL)
  rw [pay1_apply, vecSoftmax_apply, hM, hL j, neg_big_2, val_main_v63_apply, val_main_v62_apply, ref_attn]
  simp only [hL]
  refine congrArg₂ (· * ·) (Finset.sum_congr rfl fun d _ => ?_) ?_
  · rw [val_main_v61_apply, pay3_eq, h4, h2, h3]
    refine congrArg₂ (· * ·) ?_ ?_
    · refine (pay4_eq x2 x5 x6 b0 x5 (biasRow (F := Ideal) x6) (rowOf t r) r (h0 r) (fun _ _ => rfl) (biasRow_apply x6) d).trans ?_
      exact congrArg (val_main_v8 (F := Ideal) x2 x5 x6) (funext fun a => Fin.ext (by match a with | ⟨0, _⟩ => rfl | ⟨1, _⟩ => rfl))
    · refine (cenT_apply x3 x4 x5 x6 d j).trans ?_
      show cen (F := Ideal) x3 x4 x5 x6 (ix2 j d) = val_main_v14 (F := Ideal) x3 x4 x5 x6 _
      exact congrArg (val_main_v14 (F := Ideal) x3 x4 x5 x6) (funext fun a => Fin.ext (by match a with | ⟨0, _⟩ => rfl | ⟨1, _⟩ => rfl))
  · exact masked_softmax_guard (refRow x0 x1 (rowOf t r)) (validAt x0 x1 (rowOf t r)) (refRow_ne_bot x0 x1 _)
      (refRow_masked x0 x1 _) (refRow_ne_top x0 x1 _) j

end Cert.KernelIdeal.Point

end
-- ==== Proof.KernelValue.lean ====
/-
  From the blocks to the array: what the pipelined region leaves in its result array, as one function of the seven
  argument arrays.

  The region's eight windows are cut from eight arrays. Two are arguments; five are computed by the host operations
  before the region and are named closed terms of the arguments; the eighth is the result. The grid has 25 points.
  At point `t` the windows over the cluster rows (windows 0, 1 and the result's) are at block `(t, 0)`: local row `r` of
  the block is row `4000 t + r` of the array. The other five windows are always at block `(0, 0)` and the block is the
  whole array. So the seven input blocks at point `t` are the arrays read at rows `4000 t + r` or read whole, the
  body's stored value at `(r, j)` is the reference's result at `(4000 t + r, j)`, every point writes its block back,
  and the 25 blocks tile the 100000 rows: the result array ends holding the reference's result everywhere.
-/
import proofs.«143742_j69166153335044_2_alg».proof.Proof.FrameIdeal
import proofs.«143742_j69166153335044_2_alg».proof.Proof.HostTerms
import proofs.«143742_j69166153335044_2_alg».proof.Proof.PointValue
import Idealize.ShloMosaic.Lib.StableHlo.Run
import Idealize.ShloMosaic.Lib.Pipeline.Value

noncomputable section

namespace Cert.KernelIdeal.RunValue

open Cert.KernelIdeal Cert.KernelIdeal.Gen Cert.KernelIdeal.Hand Cert.KernelIdeal.Staged Cert.KernelIdeal.Point
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The arrays the host computes, as the region finds them -/

/-- Window 1's array: each cluster's packed row. -/
theorem V_main_v45 (c : Dev nD) :
    (V m c main_v45 : S100000x8.Idx → EReal) = packed (F := Ideal) (m ((c : Thread nD τ).loc main_arg0)) := by
  dsimp only [Hand.V, hostOps0]
  after_results
  rfl

/-- Window 3's array: the bias as a row. -/
theorem V_main_v17 (c : Dev nD) :
    (V m c main_v17 : S1x64.Idx → EReal) = biasRow (F := Ideal) (m ((c : Thread nD τ).loc main_arg6)) := by
  dsimp only [Hand.V, hostOps0]
  after_results
  rfl

/-- Window 4's array: the centroids' scaled projections, transposed and narrowed. -/
theorem V_main_v7 (c : Dev nD) :
    (V m c main_v7 : S64x256.Idx → EReal) = cenT (F := Ideal) (m ((c : Thread nD τ).loc main_arg3))
      (m ((c : Thread nD τ).loc main_arg4)) (m ((c : Thread nD τ).loc main_arg5)) (m ((c : Thread nD τ).loc main_arg6)) := by
  dsimp only [Hand.V, hostOps0]
  after_results
  rfl

/-- Window 5's array: the centroids' batch numbers as a row of reals. -/
theorem V_main_v11 (c : Dev nD) :
    (V m c main_v11 : S1x256.Idx → EReal) = cenBatch (F := Ideal) (m ((c : Thread nD τ).loc main_arg1)) := by
  dsimp only [Hand.V, hostOps0]
  after_results
  rfl

/-- Window 6's array: the eight-row matrix of the distance product. -/
theorem V_main_v35 (c : Dev nD) :
    (V m c main_v35 : S8x256.Idx → EReal) = distMat (F := Ideal) (m ((c : Thread nD τ).loc main_arg1)) := by
  dsimp only [Hand.V, hostOps0]
  after_results
  rfl

/-! ## The windows' block indices over the grid -/

/-- A grid point as a number below 25. -/
def pt (t : Fin cfg0.N) : Fin 25 := Fin.cast N_0 t

theorem pt_val (t : Fin cfg0.N) : (pt t).val = t.val := rfl

/-- The windows over the cluster rows are at block `(t, 0)` at point `t`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- The other five windows are at block `(0, 0)` at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## A block read off any array

A block's coordinate on an axis is the block index times the block's size plus the local coordinate. -/

/-- Window 0's block at point `t`, at local `(r, k)`, is the array at `(4000 t + r, k)`. -/
theorem read_blk0 (A : S100000x128.Idx → Ideal .f32) (t : Fin cfg0.N) (r : Fin 4000) (k : Fin 128) :
    (((cfg0.win 0).blk t).view.read (Elt Ideal) A : S4000x128.Idx → Ideal .f32) (ix2 r k) = A (ix2 (rowOf (pt t) r) k) := by
  obtain ⟨e0, e1, -⟩ := idx_rows t
  show A _ = A _
  congr 1
  funext a; apply Fin.ext
  match a with
  | ⟨0, _⟩ => show win0_0.index t (0 : Fin 2) * 4000 + 1 * r.val = 4000 * (pt t).val + r.val; rw [e0, pt_val]; omega
  | ⟨1, _⟩ => show win0_0.index t (1 : Fin 2) * 128 + 1 * k.val = k.val; rw [e1]; omega

/-- Window 1's block at point `t`, at local `(r, e)`, is the array at `(4000 t + r, e)`. -/
theorem read_blk1 (A : S100000x8.Idx → Ideal .f32) (t : Fin cfg0.N) (r : Fin 4000) (e : Fin 8) :
    (((cfg0.win 1).blk t).view.read (Elt Ideal) A : S4000x8.Idx → Ideal .f32) (ix2 r e) = A (ix2 (rowOf (pt t) r) e) := by
  obtain ⟨-, -, e0, e1, -⟩ := idx_rows t
  show A _ = A _
  congr 1
  funext a; apply Fin.ext
  match a with
  | ⟨0, _⟩ => show win0_1.index t (0 : Fin 2) * 4000 + 1 * r.val = 4000 * (pt t).val + r.val; rw [e0, pt_val]; omega
  | ⟨1, _⟩ => show win0_1.index t (1 : Fin 2) * 8 + 1 * e.val = e.val; rw [e1]; omega

/-- The result window's block at point `t`, at local `(r, j)`, is the array at `(4000 t + r, j)`. -/
theorem read_blk7 (A : S100000x256.Idx → Ideal .f32) (t : Fin cfg0.N) (r : Fin 4000) (j : Fin 256) :
    (((cfg0.win 7).blk t).view.read (Elt Ideal) A : S4000x256.Idx → Ideal .f32) (ix2 r j) = A (ix2 (rowOf (pt t) r) j) := by
  obtain ⟨-, -, -, -, e0, e1⟩ := idx_rows t
  show A _ = A _
  congr 1
  funext a; apply Fin.ext
  match a with
  | ⟨0, _⟩ => show win0_7.index t (0 : Fin 2) * 4000 + 1 * r.val = 4000 * (pt t).val + r.val; rw [e0, pt_val]; omega
  | ⟨1, _⟩ => show win0_7.index t (1 : Fin 2) * 256 + 1 * j.val = j.val; rw [e1]; omega

/-- Window 2's block at any point is its whole array. -/
theorem read_blk2 (A : S128x64.Idx → Ideal .f32) (t : Fin cfg0.N) :
    (((cfg0.win 2).blk t).view.read (Elt Ideal) A : S128x64.Idx → Ideal .f32) = A := by
  obtain ⟨e0, e1, -⟩ := idx_whole t
  funext y
  show A _ = A y
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- Window 3's block at any point is its whole array. -/
theorem read_blk3 (A : S1x64.Idx → Ideal .f32) (t : Fin cfg0.N) :
    (((cfg0.win 3).blk t).view.read (Elt Ideal) A : S1x64.Idx → Ideal .f32) = A := by
  obtain ⟨-, -, e0, e1, -⟩ := idx_whole t
  funext y
  show A _ = A y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block at any point is its whole array. -/
theorem read_blk4 (A : S64x256.Idx → Ideal .bf16) (t : Fin cfg0.N) :
    (((cfg0.win 4).blk t).view.read (Elt Ideal) A : S64x256.Idx → Ideal .bf16) = A := by
  obtain ⟨-, -, -, -, e0, e1, -⟩ := idx_whole t
  funext y
  show A _ = A y
  congr 1
  funext a; apply Fin.ext
  match a with
  | ⟨0, _⟩ => show win0_4.index t (0 : Fin 2) * 64 + 1 * (y 0).val = (y 0).val; rw [e0]; omega
  | ⟨1, _⟩ => show win0_4.index t (1 : Fin 2) * 256 + 1 * (y 1).val = (y 1).val; rw [e1]; omega

/-- Window 5's block at any point is its whole array. -/
theorem read_blk5 (A : S1x256.Idx → Ideal .f32) (t : Fin cfg0.N) :
    (((cfg0.win 5).blk t).view.read (Elt Ideal) A : S1x256.Idx → Ideal .f32) = A := by
  obtain ⟨-, -, -, -, -, -, e0, e1, -⟩ := idx_whole t
  funext y
  show A _ = A y
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- Window 6's block at any point is its whole array. -/
theorem read_blk6 (A : S8x256.Idx → Ideal .f32) (t : Fin cfg0.N) :
    (((cfg0.win 6).blk t).view.read (Elt Ideal) A : S8x256.Idx → Ideal .f32) = A := by
  obtain ⟨-, -, -, -, -, -, -, -, e0, e1⟩ := idx_whole t
  funext y
  show A _ = A y
  congr 1
  funext a; apply Fin.ext
  match a with
  | ⟨0, _⟩ => show win0_6.index t (0 : Fin 2) * 8 + 1 * (y 0).val = (y 0).val; rw [e0]; omega
  | ⟨1, _⟩ => show win0_6.index t (1 : Fin 2) * 256 + 1 * (y 1).val = (y 1).val; rw [e1]; omega

/-! ## The seven input blocks at a point -/

/-- Window 0's block: rows `4000 t + r` of `main_arg2`. -/
theorem iblk0 (c : Dev nD) (t : Fin cfg0.N) (r : Fin 4000) (k : Fin 128) :
    (iblk m c 0 t : S4000x128.Idx → Ideal .f32) (ix2 r k)
      = (m ((c : Thread nD τ).loc main_arg2) : S100000x128.Idx → Ideal .f32) (ix2 (rowOf (pt t) r) k) :=
  (congrFun (congrArg (((cfg0.win 0).blk t).view.read (Elt Ideal)) (V_main_arg2 m c)) (ix2 r k)).trans (read_blk0 _ t r k)

/-- Window 1's block: rows `4000 t + r` of the packed cluster rows. -/
theorem iblk1 (c : Dev nD) (t : Fin cfg0.N) (r : Fin 4000) (e : Fin 8) :
    (iblk m c 1 t : S4000x8.Idx → Ideal .f32) (ix2 r e)
      = packed (F := Ideal) (m ((c : Thread nD τ).loc main_arg0)) (ix2 (rowOf (pt t) r) e) :=
  (congrFun (congrArg (((cfg0.win 1).blk t).view.read (Elt Ideal)) (V_main_v45 m c)) (ix2 r e)).trans (read_blk1 _ t r e)

/-- Window 2's block: `main_arg5`, whole. -/
theorem iblk2 (c : Dev nD) (t : Fin cfg0.N) :
    (iblk m c 2 t : S128x64.Idx → Ideal .f32) = m ((c : Thread nD τ).loc main_arg5) :=
  (congrArg (((cfg0.win 2).blk t).view.read (Elt Ideal)) (V_main_arg5 m c)).trans (read_blk2 _ t)

/-- Window 3's block: the bias row, whole. -/
theorem iblk3 (c : Dev nD) (t : Fin cfg0.N) :
    (iblk m c 3 t : S1x64.Idx → Ideal .f32) = biasRow (F := Ideal) (m ((c : Thread nD τ).loc main_arg6)) :=
  (congrArg (((cfg0.win 3).blk t).view.read (Elt Ideal)) (V_main_v17 m c)).trans (read_blk3 _ t)

/-- Window 4's block: the transposed projections, whole. -/
theorem iblk4 (c : Dev nD) (t : Fin cfg0.N) :
    (iblk m c 4 t : S64x256.Idx → Ideal .bf16) = cenT (F := Ideal) (m ((c : Thread nD τ).loc main_arg3))
      (m ((c : Thread nD τ).loc main_arg4)) (m ((c : Thread nD τ).loc main_arg5)) (m ((c : Thread nD τ).loc main_arg6)) :=
  (congrArg (((cfg0.win 4).blk t).view.read (Elt Ideal)) (V_main_v7 m c)).trans (read_blk4 _ t)

/-- Window 5's block: the centroids' batch row, whole. -/
theorem iblk5 (c : Dev nD) (t : Fin cfg0.N) :
    (iblk m c 5 t : S1x256.Idx → Ideal .f32) = cenBatch (F := Ideal) (m ((c : Thread nD τ).loc main_arg1)) :=
  (congrArg (((cfg0.win 5).blk t).view.read (Elt Ideal)) (V_main_v11 m c)).trans (read_blk5 _ t)

/-- Window 6's block: the distance matrix, whole. -/
theorem iblk6 (c : Dev nD) (t : Fin cfg0.N) :
    (iblk m c 6 t : S8x256.Idx → Ideal .f32) = distMat (F := Ideal) (m ((c : Thread nD τ).loc main_arg1)) :=
  (congrArg (((cfg0.win 6).blk t).view.read (Elt Ideal)) (V_main_v35 m c)).trans (read_blk6 _ t)

/-! ## What a point writes back -/

theorem hz : (![0, 0] : Fin 2 → Nat) = fun _ => 0 := funext fun a => by fin_cases a <;> rfl

/-- The reference's result, of core `c`'s argument arrays. -/
abbrev ref (c : Dev nD) : S100000x256.Idx → Ideal .f32 :=
  Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Point `t` writes back block `t` of the reference's result: the body's one store covers the buffer with its
    payload, whose value at local `(r, j)` is the reference's at `(4000 t + r, j)` because each input block is its
    array read at those rows (or whole). -/
theorem flushed7_eq (c : Dev nD) (t : Fin cfg0.N) :
    (dats m 0 c).flushed 7 t = ((cfg0.win 7).blk t).view.read (Elt Ideal) (ref m c) := by
  show (cfg0.win 7).cut (grid0.coords t) ((dats m 0 c).after 7 t) = _
  rw [after0_7]
  unfold out7
  rw [View.canon_unit_zero hz]
  simp only [View.ld_unit_zero (S := S4000x128) hz, View.ld_unit_zero (S := S4000x8) hz, View.ld_unit_zero (S := S128x64) hz,
    View.ld_unit_zero (S := S1x64) hz, View.ld_unit_zero (S := S64x256) hz, View.ld_unit_zero (S := S1x256) hz,
    View.ld_unit_zero (S := S8x256) hz]
  funext y
  obtain ⟨r, j, rfl⟩ : ∃ (r : Fin 4000) (j : Fin 256), y = ix2 r j := ⟨y 0, y 1, eq_ix2 y⟩
  refine Eq.trans ?_ (read_blk7 (ref m c) t r j).symm
  exact point_value _ _ _ _ _ _ _ _ _ _ _ _ _ _ (pt t) (iblk0 m c t) (iblk1 m c t) (iblk2 m c t) (iblk3 m c t)
    (iblk4 m c t) (iblk5 m c t) (iblk6 m c t) r j

/-! ## The 25 blocks tile the result array -/

/-- An index of the result array is in point `t`'s block iff each coordinate is in the block's range on its axis. -/
theorem mem_blk7 (t : Fin cfg0.N) (i : S100000x256.Idx) :
    i ∈ ((cfg0.win 7).blk t).view.set ↔ ∀ a : Fin 2, win0_7.index t a * S4000x256.size a ≤ (i a).val
      ∧ (i a).val < win0_7.index t a * S4000x256.size a + S4000x256.size a := by
  show i ∈ ((View.whole main_v46).slice (win0_7.rect t)).set ↔ _
  rw [View.set_slice_whole, Rect.mem_set_unit]
  exact Iff.rfl

/-- Every index of the result array lies in the block of the point `row / 4000`, and every point writes back. -/
theorem tiled7 (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  have hN : cfg0.N = 25 := N_0
  let t : Fin cfg0.N := ⟨(i 0).val / 4000, by rw [hN]; omega⟩
  have ht : t.val = (i 0).val / 4000 := rfl
  obtain ⟨-, -, -, -, e0, e1⟩ := idx_rows t
  refine ⟨t, flush0_7 t, ?_⟩
  rw [mem_blk7]
  intro a
  match a with
  | ⟨0, _⟩ => show win0_7.index t (0 : Fin 2) * 4000 ≤ (i 0).val ∧ (i 0).val < win0_7.index t (0 : Fin 2) * 4000 + 4000
              rw [e0, ht]; omega
  | ⟨1, _⟩ => show win0_7.index t (1 : Fin 2) * 256 ≤ (i 1).val ∧ (i 1).val < win0_7.index t (1 : Fin 2) * 256 + 256
              rw [e1]; omega

/-- So the result array ends holding the reference's result. -/
theorem final7 (c : Dev nD) : (dats m 0 c).arrAt 7 cfg0.N = ref m c :=
  (dats m 0 c).arrAt_eq_of_cover 7 (ref m c) (fun t _ => flushed7_eq m c t) tiled7

/-! ## The run, read -/

/-- After the run the result array is what the write-backs make of it. -/
theorem post7 (r : PUnit × MemSt nD τ sig (Elt Ideal)) (h : Pipeline.FramePost cfgs (dats m) 0 (V m) r) (c : Dev nD) :
    r.2.mem ((c : Thread nD τ).loc main_v46) = (dats m 0 c).arrAt 7 cfg0.N :=
  (h c).1 7

/-- After the run `main_arg0` is as launched: no window stages it and no host operation writes it. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run `main_arg1` is as launched: no window stages it and no host operation writes it. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run `main_arg3` is as launched: no window stages it and no host operation writes it. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run `main_arg4` is as launched: no window stages it and no host operation writes it. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run `main_arg6` is as launched: no window stages it and no host operation writes it. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run `main_arg2` is as launched: input window 0 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- After the run `main_arg5` is as launched: input window 2 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- THE RUN, READ: every weakly fair execution of @main on the TensorCores terminates; the result array ends holding the
    reference's result of the argument arrays, and the seven arguments end as launched. -/
theorem run : θ_run defs (onTc (τ := τ) (main (F := Ideal))) ⟨m, fun _ => 0, ρ⟩ fun r => ∀ c : Dev nD,
      r.2.mem ((c : Thread nD τ).loc main_v46)
        = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      kept_main_arg0 m r h c, kept_main_arg1 m r h c, kept_main_arg2 m r h c, kept_main_arg3 m r h c, kept_main_arg4 m r h c, kept_main_arg5 m r h c, kept_main_arg6 m r h c⟩)
    (run_main m ρ)

end Cert.KernelIdeal.RunValue

end
-- ==== Proof.lean ====
/-
  The certificate of a cluster-to-centroid attention weight, computed block by block on the TensorCore, against its
  reference on the host.

  For each of 100000 clusters (a batch number, three integer coordinates, a 128-feature row) and each of 256 centroids
  the program computes the product of two numbers.

  * A SIMILARITY. The cluster's feature row is projected (`feats · W + b`, 64 columns), divided by its Euclidean norm
    (the norm floored at a small positive constant), and multiplied with the centroid's projection scaled by its
    confidence (`conf · (feats' · W + b)`).
  * A WEIGHT. The squared Euclidean distance between cluster and centroid is an 8-term product of packed rows —
    `(batch, x, y, z, |c|², 1, 0, 0)` against `(0, −2x', −2y', −2z', 1, |e|², 0, 0)`, that is `|c|² − 2 c·e + |e|²` —; the
    distance is its square root, clamped below at zero before the root and at 0.1 after. Its negation is a logit where
    cluster and centroid carry the same batch number; elsewhere the logit is a mask constant. The weight is the softmax
    of the logits over the 256 centroids, and is zero for a cluster with no centroid of its batch (its largest logit
    does not exceed a second mask constant).

  The kernel stages 4000 clusters at a time through 25 grid points; the host prepares the packed rows, the distance
  matrix, the scaled projections (transposed) and the centroids' batch row beforehand. Claimed and proved:

  * each of the three programs runs, terminates and leaves its seven argument arrays as launched (the frames);
  * the kernel's idealization differs from the kernel in its two mask constants only, large negative finite numbers
    in the kernel, named in the idealization and denoting −∞ there;
  * at the ideal instance — floats the extended reals, operations exact, format changes the identity — the
    idealized kernel's result array and the reference's are equal entry by entry, from memories that agree on the
    arguments: each point writes back its block of the reference's function of the arguments, and the 25 blocks tile
    the array.
-/
import proofs.«143742_j69166153335044_2_alg».proof.Defs
import proofs.«143742_j69166153335044_2_alg».proof.Proof.Gen.Kernel
import proofs.«143742_j69166153335044_2_alg».proof.Proof.Gen.Kernel.Skeleton
import proofs.«143742_j69166153335044_2_alg».proof.Proof.Gen.Kernel.Launch
import proofs.«143742_j69166153335044_2_alg».proof.Proof.Gen.Kernel.Points
import proofs.«143742_j69166153335044_2_alg».proof.Proof.Gen.KernelIdeal
import proofs.«143742_j69166153335044_2_alg».proof.Proof.Gen.KernelIdeal.Skeleton
import proofs.«143742_j69166153335044_2_alg».proof.Proof.Gen.KernelIdeal.Launch
import proofs.«143742_j69166153335044_2_alg».proof.Proof.Gen.KernelIdeal.Points
import proofs.«143742_j69166153335044_2_alg».proof.Proof.Gen.ReferenceIdeal
import proofs.«143742_j69166153335044_2_alg».proof.Proof.Gen.Pre_finite_inputs
import proofs.«143742_j69166153335044_2_alg».proof.Proof.Gen.ReferenceIdeal.Run
import proofs.«143742_j69166153335044_2_alg».proof.Proof.Gen.ReferenceIdeal.Read
import proofs.«143742_j69166153335044_2_alg».proof.Proof.FrameIdeal
import proofs.«143742_j69166153335044_2_alg».proof.Proof.FrameBits
import proofs.«143742_j69166153335044_2_alg».proof.Proof.KernelValue
import Idealize.ShloMosaic.Adequacy
import Idealize.ShloMosaic.Init

noncomputable section

namespace Cert.Proof

open Idealize.ShloMosaic Idealize.ShloMosaic.TcCoe Idealize.SL.Sem

/-- The kernel runs, terminates and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run leaves every argument as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization's two rewrites: each mask constant is named, the table gives the name the value −∞, and the
    named constant is that value at the ideal instance. -/
theorem preserves : Cert.preserves_Kernel_KernelIdeal :=
  ⟨IdealRules.named_const.statement Cert.KernelIdeal.κ "neg_big" .f32 0xFF333332#32 ⊥ rfl,
    IdealRules.named_const.statement Cert.KernelIdeal.κ "neg_big_2" .f32 0xFEB33332#32 ⊥ rfl⟩

/-- At the ideal instance the idealized kernel's result array ends holding the reference's function of the kernel's
    arguments, and the reference's result array the same function of its own arguments, which are the kernel's. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
